-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x768 : Shape := ⟨3, ![1024, 64, 768]⟩
abbrev S_ : Shape := ⟨0, ![]⟩

class Facts : Prop where
  bcast_S_S1024x64x768 : S_.BroadcastsInDim S1024x64x768 (![] : Fin 0 → Fin S1024x64x768.rank)
  reducesTo_S1024x64x768_S_d0_1_2 : S1024x64x768.ReducesTo [0, 1, 2] S_
  h_S_ : 0 < S_.numel

variable [Facts]

def fn {F : FTy → Type} [FloatOps F] (main_arg0 : FVec F S1024x64x768 .f32) : IVec S_ 1 :=
  let main_v0 : FVec F S1024x64x768 .f32 := Host.absf main_arg0
  let main_cst : FVec F S_ .f32 := constant S_ .f32 0x7F800000#32
  let main_v1 : FVec F S1024x64x768 .f32 := broadcastInDim S1024x64x768 ![] bcast_S_S1024x64x768 main_cst
  let main_v2 : IVec S1024x64x768 1 := cmpf .olt main_v0 main_v1
  let main_c : IVec S_ 1 := constantI S_ 1 1#1
  let main_v3 : IVec S_ 1 := (fun x v => Host.reduce IntOp.andi x v reducesTo_S1024x64x768_S_d0_1_2 h_S_) main_v2 main_c
  main_v3
-- ==== Kernel.lean ====
abbrev S1024x64x768 : Shape := ⟨3, ![1024, 64, 768]⟩
abbrev S2x64x768 : Shape := ⟨3, ![2, 64, 768]⟩
abbrev S_ : Shape := ⟨0, ![]⟩
abbrev S1x64x768 : Shape := ⟨3, ![1, 64, 768]⟩
abbrev S64x768 : Shape := ⟨2, ![64, 768]⟩

abbrev nBuf : Table → Nat
  | .hbm => 2
  | .local .scVector .vmem => 1
  | _ => 0

abbrev bufTy : (tb : Table) → Fin (nBuf tb) → BufTy
  | .hbm, ⟨0, _⟩ => ⟨S1024x64x768, .f32⟩
  | .hbm, ⟨1, _⟩ => ⟨S1024x64x768, .f32⟩
  | .local .scVector .vmem, ⟨0, _⟩ => ⟨S2x64x768, .f32⟩
  | _, _ => ⟨S1024x64x768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi v2 c0_i32
  let c0_i32_3 : BitVec 32 := 0#32
  let c0_i32_4 : BitVec 32 := 0#32
  ![v3.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S2x64x768_S1x64x768_0_0_0 : ∀ a, (![0, 0, 0] : Fin 3 → Nat) a + S1x64x768.size a ≤ S2x64x768.size a
  squeezes_S1x64x768_S64x768 : S1x64x768.Squeezes S64x768
  inb_S2x64x768_S1x64x768_1_0_0 : ∀ a, (![1, 0, 0] : Fin 3 → Nat) a + S1x64x768.size a ≤ S2x64x768.size a
  hcc0_scratch1 : 0 + S_.numel ≤ 4
  hcc0_scratch2 : 1 + S_.numel ≤ 4
  hcc0_scratch3 : 2 + S_.numel ≤ 4
  hcc0_scratch4 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 32), ∀ a, (k0_off1 i (BitVec.ofNat 32 r.val)) a + S1x64x768.size a ≤ S1024x64x768.size a

variable [Facts₀]

abbrev cc0_scratch1 : DmaSems sig S_ := SemArray.consecutive 0 S_ hcc0_scratch1
abbrev cc0_scratch2 : DmaSems sig S_ := SemArray.consecutive 1 S_ hcc0_scratch2
abbrev cc0_scratch3 : DmaSems sig S_ := SemArray.consecutive 2 S_ hcc0_scratch3
abbrev cc0_scratch4 : DmaSems sig S_ := SemArray.consecutive 3 S_ hcc0_scratch4

class Facts : Prop extends Facts₀ where

variable [Facts]
-- ==== ReferenceIdeal.lean ====
abbrev S1024x64x768 : Shape := ⟨3, ![1024, 64, 768]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S1024x64x768, .f32⟩
  | .hbm, ⟨1, _⟩ => ⟨S64, .i32⟩
  | .hbm, ⟨2, _⟩ => ⟨S_, .i32⟩
  | .hbm, ⟨3, _⟩ => ⟨S64, .i32⟩
  | .hbm, ⟨4, _⟩ => ⟨S64, .i1⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S64, .i32⟩
  | .hbm, ⟨9, _⟩ => ⟨S64x1, .i32⟩
  | .hbm, ⟨10, _⟩ => ⟨S1, .i32⟩
  | .hbm, ⟨11, _⟩ => ⟨S_, .i32⟩
  | .hbm, ⟨12, _⟩ => ⟨S64x1, .i32⟩
  | .hbm, ⟨13, _⟩ => ⟨S64x1, .i1⟩
  | .hbm, ⟨14, _⟩ => ⟨S1x1, .i32⟩
  | .hbm, ⟨15, _⟩ => ⟨S64x1, .i32⟩
  | .hbm, ⟨16, _⟩ => ⟨S64x1, .i1⟩
  | .hbm, ⟨17, _⟩ => ⟨S64x1, .i1⟩
  | .hbm, ⟨18, _⟩ => ⟨S_, .i1⟩
  | .hbm, ⟨19, _⟩ => ⟨S64, .i1⟩
  | .hbm, ⟨20, _⟩ => ⟨S1024x64x768, .f32⟩
  | .hbm, ⟨21, _⟩ => ⟨S1024x64x768, .i1⟩
  | .hbm, ⟨22, _⟩ => ⟨S_, .f32⟩
  | .hbm, ⟨23, _⟩ => ⟨S1024x64x768, .f32⟩
  | .hbm, ⟨24, _⟩ => ⟨S1024x64x768, .f32⟩
  | _, _ => ⟨S1024x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  h_S_ : 0 < S_.numel
  bcast_S64_S1024x64x768_1 : S64.BroadcastsInDim S1024x64x768 (![1] : Fin 1 → Fin S1024x64x768.rank)
  bcast_S_S1024x64x768 : S_.BroadcastsInDim S1024x64x768 (![] : Fin 0 → Fin S1024x64x768.rank)
  gather_S1024x64x768_S64x1_S1024x64x768_02_1_n_n_1_1_10241768_wf : GatherDims.WF S1024x64x768 S64x1 S1024x64x768 [0, 2] [1] [] [1] [] 1 ![1024, 1, 768]

variable [Facts₀]

def gather_S1024x64x768_S64x1_S1024x64x768_02_1_n_n_1_1_10241768 : GatherDims S1024x64x768 S64x1 S1024x64x768 where
  offsetDims := [0, 2]
  collapsedSliceDims := [1]
  operandBatchingDims := []
  startIndicesBatchingDims := []
  startIndexMap := [1]
  indexVectorDim := 1
  sliceSizes := ![1024, 1, 768]
  wf := gather_S1024x64x768_S64x1_S1024x64x768_02_1_n_n_1_1_10241768_wf

class Facts : Prop extends Facts₀ where

variable [Facts]
-- ==== Proof.KernelSetup.lean ====
/-
  The vocabulary shared by the copy kernel's task and its launch.

  The kernel runs on the 2 × 16 vector subcores of the device's two SparseCores. Subcore `i` of SparseCore `c` is
  worker `2 i + c`; it moves rows `[32 (2 i + c), 32 (2 i + c) + 32)` of the argument array `x : f32[1024, 64, 768]`
  into the same rows of the result array, one row (a `[64, 768]` slab) at a time through a two-slot staging buffer.
  The 32 row blocks partition the 1024 rows, so no two workers touch a common element of either array.

  Stated here: the arrays as locations and as the kernel's memrefs; the row blocks (`blk w`, the `w`-th of 32 equal
  parts along axis 0) and the worker that owns each (`wOf`); and what the one SparseCore call hands over and takes
  back. Going out, worker `w` receives block `w` of `x` and block `w` of the result array, each at its launch
  contents; coming back, block `w` of `x` is unchanged and block `w` of the result holds `x`'s values there. Every
  returned result block is stated at the ONE whole-array function "the contents of `x`", so the blocks join to the
  whole array by the partition alone.
-/
import proofs.«204742_g3796751089860_cont_8to1_b_745_9_alg».proof.Kernel
import proofs.«204742_g3796751089860_cont_8to1_b_745_9_alg».proof.Proof.Gen.Kernel
import Idealize.ShloMosaic.Lib.SparseCore.Launch
import Idealize.ShloMosaic.Lib.Pipeline.Kit
import Idealize.ShloMosaic.Lib.Tactic

noncomputable section

namespace Cert.Kernel.Frame

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the two arrays, the row blocks -/

variable (m : (ℓ : Loc nD τ sig) → Buf (Elt F) ℓ) (ρ : Dev nD → PrngReg)

/-- The argument array `x` and the result array, as locations of device `d`. -/
abbrev xLoc (d : Dev nD) : Loc nD τ sig := (SparseCore.T d).loc main_arg0
abbrev oLoc (d : Dev nD) : Loc nD τ sig := (SparseCore.T d).loc main_v0

/-- The contents of `x` read as contents of the result array: the two arrays have one shape and one element type. -/
abbrev xAsO (d : Dev nD) : Buf (Elt F) (oLoc d) := m (xLoc d)

theorem hdiv : 32 ∣ S1024x64x768.size 0 := ⟨32, rfl⟩
/-- Row block `w`: rows `[32 w, 32 w + 32)`, every column, every lane. -/
abbrev blk (w : Fin 32) : Rect S1024x64x768 := Rect.part (s := S1024x64x768) (a₀ := 0) hdiv w
abbrev blkSet (w : Fin 32) : Finset S1024x64x768.Idx := (blk w).set

/-- The worker on subcore `i` of SparseCore `c`: `2 i + c`. -/
def wOf (c : Fin 2) (i : Fin 16) : Fin 32 := ⟨2 * i.val + c.val, by omega⟩

/-! ## What the handshakes carry -/

abbrev xBlk (d : Dev nD) (w : Fin 32) : sProp 𝕄 := xLoc d ↦[blkSet w]{fullShare} m (xLoc d)
abbrev oBlk (d : Dev nD) (w : Fin 32) (f : Buf (Elt F) (oLoc d)) : sProp 𝕄 := oLoc d ↦[blkSet w]{fullShare} f

/-- Going out to worker `w`: its block of `x`, its block of the result array at the launch contents. -/
def goP (d : Dev nD) (w : Fin 32) : sProp 𝕄 := iprop(xBlk m d w ∗ oBlk d w (m (oLoc d)))
/-- Coming back from worker `w`: its block of `x` as it was, its block of the result array holding `x`'s values. -/
def tdP (d : Dev nD) (w : Fin 32) : sProp 𝕄 := iprop(xBlk m d w ∗ oBlk d w (xAsO m d))

instance goP_storable (d : Dev nD) (w : Fin 32) : BI.Storable (upEmb : UEmb _ 𝕄) (goP m d w) := by unfold goP; infer_instance
instance tdP_storable (d : Dev nD) (w : Fin 32) : BI.Storable (upEmb : UEmb _ 𝕄) (tdP m d w) := by unfold tdP; infer_instance

/-- The one call: a SparseCore takes its sixteen workers' blocks and brings them back. -/
def P : (K (F := F)).Pay (nD := nD) (Val := Elt F) (Name := ℕ) (U := UU) where
  st := fun q d c => match q with
    | 0 => bigSep Finset.univ fun i : Fin ((K (F := F)).nSub 0) => goP m d (wOf (Fin.cast nCore_zero c) (Fin.cast nSub_zero i))
  dn := fun q d c => match q with
    | 0 => bigSep Finset.univ fun i : Fin ((K (F := F)).nSub 0) => tdP m d (wOf (Fin.cast nCore_zero c) (Fin.cast nSub_zero i))
  go := fun q d c i => match q with | 0 => goP m d (wOf (Fin.cast nCore_zero c) (Fin.cast nSub_zero i))
  td := fun q d c i => match q with | 0 => tdP m d (wOf (Fin.cast nCore_zero c) (Fin.cast nSub_zero i))
  x := fun _ _ => iprop(emp)

instance P_storable : (P (F := F) m).IsStorable where
  st q d c := match q with
    | 0 => (inferInstance : BI.Storable (upEmb : UEmb _ 𝕄)
        (bigSep Finset.univ fun i : Fin ((K (F := F)).nSub 0) => goP m d (wOf (Fin.cast nCore_zero c) (Fin.cast nSub_zero i))))
  dn q d c := match q with
    | 0 => (inferInstance : BI.Storable (upEmb : UEmb _ 𝕄)
        (bigSep Finset.univ fun i : Fin ((K (F := F)).nSub 0) => tdP m d (wOf (Fin.cast nCore_zero c) (Fin.cast nSub_zero i))))
  go q d c i := match q with
    | 0 => (inferInstance : BI.Storable (upEmb : UEmb _ 𝕄) (goP m d (wOf (Fin.cast nCore_zero c) (Fin.cast nSub_zero i))))
  td q d c i := match q with
    | 0 => (inferInstance : BI.Storable (upEmb : UEmb _ 𝕄) (tdP m d (wOf (Fin.cast nCore_zero c) (Fin.cast nSub_zero i))))

end Cert.Kernel.Frame

end
-- ==== Proof.KernelRows.lean ====
/-
  The worker's block, row by row.

  Worker `(c, i)` (SparseCore `c`, subcore `i`; grid point `L`) owns rows `[64 i + 32 c, 64 i + 32 c + 32)` of both
  arrays: the rectangle `TR L`. Its `k`-th transfer pair moves row `64 i + 32 c + k` of `x` — the slab `xRow L k` —
  through the staging buffer into the same row of the result — the slab `oRow L k`. Writing the whole of a row slab
  puts the payload at that row's elements and changes no other element; the rows of a block are pairwise disjoint and
  cover it. So after `k` pairs the first `k` rows of the block hold `x`'s values (`RowsDone`), one more pair extends
  that by a row (`rowsDone_step`), and after 32 the whole block does (`rowsDone_block`).
-/
import proofs.«204742_g3796751089860_cont_8to1_b_745_9_alg».proof.Proof.KernelSetup

noncomputable section

namespace Cert.Kernel.Frame

open Cert.Kernel Cert.Kernel.Gen

open Idealize.ShloMosaic
open Idealize.ShloMosaic.SparseCore (S V T)
open Idealize.SL Idealize.SL.Sem

variable {F : FTy → Type}

/-- The SparseCore and the subcore of grid point `L`. -/
abbrev cV (L : grid0.Coords) : Fin τ.nSC := (L 0).castLE hcore0
abbrev jV (L : grid0.Coords) : Fin τ.nSub := (L 1).castLE hsub0

/-- The worker at grid point `L`. -/
def wL (L : grid0.Coords) : Fin 32 := ⟨2 * (L 1).val + (L 0).val, by
  have h0 : (L 0).val < 2 := (L 0).isLt
  have h1 : (L 1).val < 16 := (L 1).isLt
  omega⟩

theorem TR_inb (L : grid0.Coords) : ∀ a, (![64 * (L 1).val + 32 * (L 0).val, 0, 0] : Fin 3 → Nat) a + (![32, 64, 768] : Fin 3 → Nat) a ≤ S1024x64x768.size a := by
  have h0 : (L 0).val < 2 := (L 0).isLt
  have h1 : (L 1).val < 16 := (L 1).isLt
  intro a
  match a with
  | 0 => show 64 * (L 1).val + 32 * (L 0).val + 32 ≤ 1024; omega
  | 1 => show 0 + 64 ≤ 64; omega
  | 2 => show 0 + 768 ≤ 768; omega
/-- The worker's rows as one rectangle: 32 rows from row `64 (L 1) + 32 (L 0)`. -/
abbrev TR (L : grid0.Coords) : Rect S1024x64x768 := Rect.unit (s := S1024x64x768) ![64 * (L 1).val + 32 * (L 0).val, 0, 0] ![32, 64, 768] (TR_inb L)

/-! ### Membership in the rectangles, read off the row coordinate

Every rectangle here is whole on the column and lane axes, so whether an element lies in it is a statement about
its row alone. -/

theorem idx1_lt (i : S1024x64x768.Idx) : (i 1 : ℕ) < 64 := (i 1).isLt
theorem idx2_lt (i : S1024x64x768.Idx) : (i 2 : ℕ) < 768 := (i 2).isLt

/-- An element lies in the worker's rectangle exactly when its row is one of the worker's 32. -/
theorem mem_TR (L : grid0.Coords) (i : S1024x64x768.Idx) :
    i ∈ (TR L).set ↔ 64 * (L 1).val + 32 * (L 0).val ≤ (i 0 : ℕ) ∧ (i 0 : ℕ) < 64 * (L 1).val + 32 * (L 0).val + 32 := by
  rw [Rect.mem_set_unit]
  refine ⟨fun h => h 0, fun h a => ?_⟩
  match a with
  | 0 => exact h
  | 1 => have := idx1_lt i; show 0 ≤ (i 1 : ℕ) ∧ (i 1 : ℕ) < 0 + 64; omega
  | 2 => have := idx2_lt i; show 0 ≤ (i 2 : ℕ) ∧ (i 2 : ℕ) < 0 + 768; omega

/-- An element lies in part `w` of the cut into 32 exactly when its row lies in `[32 w, 32 w + 32)`. -/
theorem mem_blk (w : Fin 32) (i : S1024x64x768.Idx) :
    i ∈ blkSet w ↔ w.val * 32 ≤ (i 0 : ℕ) ∧ (i 0 : ℕ) < w.val * 32 + 32 := by
  show i ∈ (Rect.unit _ _ _).set ↔ _
  rw [Rect.mem_set_unit]
  refine ⟨fun h => h 0, fun h a => ?_⟩
  match a with
  | 0 => exact h
  | 1 => have := idx1_lt i; show 0 * 64 ≤ (i 1 : ℕ) ∧ (i 1 : ℕ) < 0 * 64 + 64; omega
  | 2 => have := idx2_lt i; show 0 * 768 ≤ (i 2 : ℕ) ∧ (i 2 : ℕ) < 0 * 768 + 768; omega

/-- The worker's rectangle is its block of the partition into 32 parts. -/
theorem TR_set (L : grid0.Coords) : (TR L).set = blkSet (wL L) := by
  have h0 : (L 0).val < 2 := (L 0).isLt
  have h1 : (L 1).val < 16 := (L 1).isLt
  ext i
  rw [mem_TR, mem_blk]
  show _ ↔ (2 * (L 1).val + (L 0).val) * 32 ≤ (i 0 : ℕ) ∧ (i 0 : ℕ) < (2 * (L 1).val + (L 0).val) * 32 + 32
  omega

/-- Row `k` of the worker's block of `x`, as the kernel slices and squeezes it: a `[64, 768]` slab. -/
abbrev xRow (L : grid0.Coords) (k : Fin 32) : Memref sig .scVector .hbm S64x768 .f32 :=
  ((Memref.whole main_arg0_scv : Memref sig .scVector .hbm S1024x64x768 .f32).slice
    (Rect.unit (s := S1024x64x768) (k0_off1 L (BitVec.ofNat 32 k.val)) S1x64x768.size (k0_off1_inb L k)) (fun _ => rfl)).squeeze S64x768 squeezes_S1x64x768_S64x768
/-- The same row of the result array. -/
abbrev oRow (L : grid0.Coords) (k : Fin 32) : Memref sig .scVector .hbm S64x768 .f32 :=
  ((Memref.whole main_v0_scv : Memref sig .scVector .hbm S1024x64x768 .f32).slice
    (Rect.unit (s := S1024x64x768) (k0_off1 L (BitVec.ofNat 32 k.val)) S1x64x768.size (k0_off1_inb L k)) (fun _ => rfl)).squeeze S64x768 squeezes_S1x64x768_S64x768

/-! ### One row slab

The slab of row `k` is sliced off the whole array by the rectangle of thickness one at row `64 (L 1) + 32 (L 0) + k`,
then re-indexed by `[64, 768]`; re-indexing changes no element, so the slab's elements are the rectangle's, and the
two arrays' slabs — same shape, same rectangle — sit at the same indices. -/

/-- The rectangle the kernel slices row `k` by. -/
abbrev rowRect (L : grid0.Coords) (k : Fin 32) : Rect S1024x64x768 :=
  Rect.unit (s := S1024x64x768) (k0_off1 L (BitVec.ofNat 32 k.val)) S1x64x768.size (k0_off1_inb L k)

/-- An element lies in row `k`'s rectangle exactly when its row is `64 (L 1) + 32 (L 0) + k`. -/
theorem mem_rowRect (L : grid0.Coords) (k : Fin 32) (i : S1024x64x768.Idx) :
    i ∈ (rowRect L k).set ↔ (i 0 : ℕ) = 64 * (L 1).val + 32 * (L 0).val + k.val := by
  rw [Rect.mem_set_unit, k0_off1_eq L k]
  constructor
  · intro h
    have h0 : 64 * (L 1).val + 32 * (L 0).val + k.val ≤ (i 0 : ℕ) ∧ (i 0 : ℕ) < 64 * (L 1).val + 32 * (L 0).val + k.val + 1 := h 0
    omega
  · intro h a
    match a with
    | 0 => show 64 * (L 1).val + 32 * (L 0).val + k.val ≤ (i 0 : ℕ) ∧ (i 0 : ℕ) < 64 * (L 1).val + 32 * (L 0).val + k.val + 1; omega
    | 1 => have := idx1_lt i; show 0 ≤ (i 1 : ℕ) ∧ (i 1 : ℕ) < 0 + 64; omega
    | 2 => have := idx2_lt i; show 0 ≤ (i 2 : ℕ) ∧ (i 2 : ℕ) < 0 + 768; omega

/-- The elements under row `k`'s slab of the result array are the rectangle's. -/
theorem oRow_set (L : grid0.Coords) (k : Fin 32) : (oRow L k).view.set = (rowRect L k).set := by
  show (((View.whole main_v0_scv).slice (rowRect L k)).reshape S64x768 _).set = _
  rw [View.set_reshape, View.set_slice_whole]

/-- Every element of row `k`'s slab has row coordinate `64 (L 1) + 32 (L 0) + k`. -/
theorem oRow_emb_row (L : grid0.Coords) (k : Fin 32) (y : S64x768.Idx) :
    (((oRow L k).view.emb y : S1024x64x768.Idx) 0 : ℕ) = 64 * (L 1).val + 32 * (L 0).val + k.val :=
  (mem_rowRect L k _).mp (by rw [← oRow_set]; exact View.emb_mem_set _ y)

/-- The slab of row `k` of the argument and that of the result sit at the same indices. -/
theorem xRow_emb_eq (L : grid0.Coords) (k : Fin 32) (y : S64x768.Idx) :
    ((xRow L k).view.emb y : S1024x64x768.Idx) = (oRow L k).view.emb y := rfl

variable (d : Dev nD) (L : grid0.Coords)

/-- The first `k` rows of the worker's block of `f` (contents of the result array) hold `X`'s values (contents of `x`). -/
def RowsDone (X : Buf (Elt F) (xLoc d)) (k : Nat) (f : Buf (Elt F) (oLoc d)) : Prop :=
  ∀ r : Fin 32, r.val < k → ∀ y : S64x768.Idx, f ((oRow L r).view.emb y) = X ((xRow L r).view.emb y)

theorem rowsDone_zero (X : Buf (Elt F) (xLoc d)) (f : Buf (Elt F) (oLoc d)) :
    RowsDone d L X 0 f := fun r h => absurd h (Nat.not_lt_zero _)

/-- One more transfer pair: the payload read from row `k` of `X`, written whole into row `k` of `f`. -/
theorem rowsDone_step (X : Buf (Elt F) (xLoc d)) (k : Fin 32) (f : Buf (Elt F) (oLoc d))
    (w : S64x768.Idx → Elt F .f32) (hw : w = (xRow L k).view.read (Elt F) X) (h : RowsDone d L X k.val f) :
    RowsDone d L X (k.val + 1) ((oRow L k).view.write (Elt F) f w Finset.univ) := by
  intro r hr y
  rcases Nat.lt_succ_iff_lt_or_eq.mp hr with hlt | heq
  · -- an earlier row: its elements are not under row `k`'s slab, so the write leaves them
    have hne : ((oRow L r).view.emb y : S1024x64x768.Idx) ∉ (oRow L k).view.setOn Finset.univ := by
      rw [View.setOn_univ, oRow_set, mem_rowRect, oRow_emb_row]; omega
    rw [View.write_of_not_mem _ _ _ hne]
    exact h r hlt y
  · -- row `k` itself: the write puts the payload there, and the payload is `X` read at the same indices
    have hrk : r = k := Fin.ext heq
    subst hrk
    rw [View.write_emb_of_mem _ _ (Finset.mem_univ y), hw, View.read_apply, cast_cast, cast_eq]

/-- All 32 rows done: the block holds `X`'s values. -/
theorem rowsDone_block (X : Buf (Elt F) (xLoc d)) (f : Buf (Elt F) (oLoc d))
    (h : RowsDone d L X 32 f) :
    ∀ i ∈ (Memref.whole main_v0_scv : Memref sig .scVector .hbm S1024x64x768 .f32).view.setOn (TR L).set, f i = X i := by
  intro i hi
  obtain ⟨x, hx, rfl⟩ := Finset.mem_map.mp hi
  show f x = X x
  have hx' := (mem_TR L x).mp hx
  have hr : (x 0 : ℕ) - (64 * (L 1).val + 32 * (L 0).val) < 32 := by omega
  -- the element's row is row `r` of the block, so it lies under that row's slab
  have hmem : x ∈ (oRow L ⟨_, hr⟩).view.set := by
    rw [oRow_set, mem_rowRect]
    show (x 0 : ℕ) = 64 * (L 1).val + 32 * (L 0).val + ((x 0 : ℕ) - (64 * (L 1).val + 32 * (L 0).val)); omega
  obtain ⟨y, -, hy⟩ := Finset.mem_map.mp hmem
  have hry := h ⟨_, hr⟩ hr y
  rw [xRow_emb_eq, hy] at hry
  exact hry

end Cert.Kernel.Frame

end
-- ==== Proof.KernelTile.lean ====
/-
  One worker's task of the copy kernel, and the launch theorem's obligation for it.

  Worker `(c, i)` holds its block of `x` and of the result array (32 rows each), its two-slot staging buffer and four
  transfer counters at zero. For each of its rows `k = 0, …, 31`, in the kernel's double-buffered order, it copies row `k`
  of `x` into staging slot `k mod 2`, waits for that copy, copies the slot into row `k` of the result, and waits for
  that copy before the slot is filled again two rows later. Every counter carries one copy at a time and no buffer is
  touched between a copy's issue and its wait, so the run is determined: the payload the `k`-th write-out carries is what
  the `k`-th fetch read — row `k` of `x` (reading back the whole of what was just written whole gives the payload) —
  and it lands on row `k` of the result whole. After the 32 pairs the block of the result holds `x`'s values
  (`RowsDone`, row by row), `x`'s block is as it was, and the counters are back at zero.
-/
import proofs.«204742_g3796751089860_cont_8to1_b_745_9_alg».proof.Proof.KernelSetup
import proofs.«204742_g3796751089860_cont_8to1_b_745_9_alg».proof.Proof.KernelRows
import proofs.«204742_g3796751089860_cont_8to1_b_745_9_alg».proof.Proof.Gen.Kernel.Skeleton
import Idealize.ShloMosaic.Lib.SparseCore.Launch
import Idealize.ShloMosaic.Lib.Pipeline.Kit
import Idealize.ShloMosaic.Lib.Tactic

noncomputable section

namespace Cert.Kernel.Frame

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "xW" => (Memref.whole Cert.Kernel.main_arg0_scv : Memref Cert.Kernel.sig Kind.scVector Space.hbm Cert.Kernel.S1024x64x768 EltTy.f32)
local notation "oW" => (Memref.whole Cert.Kernel.main_v0_scv : Memref Cert.Kernel.sig Kind.scVector Space.hbm Cert.Kernel.S1024x64x768 EltTy.f32)
local notation "sW" => (Memref.whole Cert.Kernel.cc0_scratch0 : Memref Cert.Kernel.sig Kind.scVector Space.vmem Cert.Kernel.S2x64x768 EltTy.f32)

/-! ## The worker's holdings, as the launch hands them over and as the kernel addresses them -/

section Tile

variable (d : Dev nD) (L : grid0.Coords)

/-- The worker's block of `x`, held under the worker's rectangle of the kernel's whole-array memref, is block `wL L`. -/
theorem pts_x (f : Buf (Elt F) (xLoc d)) :
    ((xW).view.loc (V d (cV L) (jV L)) ↦[(xW).view.setOn (TR L).set]{fullShare} f : sProp 𝕄) = xLoc d ↦[blkSet (wL L)]{fullShare} f := by
  have e : (xW).view.setOn (TR L).set = blkSet (wL L) := by
    rw [← TR_set]; exact Finset.map_refl
  exact congrArg (fun I => (xLoc d ↦[I]{fullShare} f : sProp 𝕄)) e
/-- The same for the result array. -/
theorem pts_o (f : Buf (Elt F) (oLoc d)) :
    ((oW).view.loc (V d (cV L) (jV L)) ↦[(oW).view.setOn (TR L).set]{fullShare} f : sProp 𝕄) = oLoc d ↦[blkSet (wL L)]{fullShare} f := by
  have e : (oW).view.setOn (TR L).set = blkSet (wL L) := by
    rw [← TR_set]; exact Finset.map_refl
  exact congrArg (fun I => (oLoc d ↦[I]{fullShare} f : sProp 𝕄)) e
/-- The staging buffer whole. -/
theorem pts_s (f : Buf (Elt F) ((V d (cV L) (jV L)).loc cc0_scratch0)) :
    ((sW).view.loc (V d (cV L) (jV L)) ↦{fullShare} f : sProp 𝕄) = (V d (cV L) (jV L)).loc cc0_scratch0 ↦{fullShare} f := rfl

/-- The worker's four transfer counters. -/
abbrev cell5 : GSem nD τ sig := (V d (cV L) (jV L), .dma cc0_scratch1.sem)
abbrev cell6 : GSem nD τ sig := (V d (cV L) (jV L), .dma cc0_scratch2.sem)
abbrev cell7 : GSem nD τ sig := (V d (cV L) (jV L), .dma cc0_scratch3.sem)
abbrev cell8 : GSem nD τ sig := (V d (cV L) (jV L), .dma cc0_scratch4.sem)

theorem cell_ne (thr : Thread nD τ) {a b : DmaSem sig} (h : a ≠ b) : ((thr, SemLoc.dma a) : GSem nD τ sig) ≠ (thr, SemLoc.dma b) :=
  fun e => h (SemLoc.dma.inj (Prod.mk.inj e).2)

theorem mem_own (a : DmaSem sig) : ((V d (cV L) (jV L), SemLoc.dma a) : GSem nD τ sig) ∈ ownCells (V d (cV L) (jV L)) :=
  (mem_ownCells (g := ((V d (cV L) (jV L), SemLoc.dma a) : GSem nD τ sig))).mpr ⟨rfl, by
    show (SemLoc.dma a : SemLoc sig).isScoped .scVector = true; rfl⟩

/-- The subcore's own counters at zero: the four the kernel names, and the rest. -/
theorem ownSems0_V :
    (ownSems0 (V d (cV L) (jV L)) : sProp 𝕄)
      = iprop(semVal (cell5 d L) 0 ∗ semVal (cell6 d L) 0 ∗ semVal (cell7 d L) 0 ∗ semVal (cell8 d L) 0
          ∗ bigSep (((((ownCells (V d (cV L) (jV L))).erase (cell5 d L)).erase (cell6 d L)).erase (cell7 d L)).erase (cell8 d L)) fun g => semVal g 0) := by
  unfold SparseCore.Cfg.ownSems0
  have h21 : (cc0_scratch2.sem : DmaSem sig) ≠ cc0_scratch1.sem := by decide
  have h31 : (cc0_scratch3.sem : DmaSem sig) ≠ cc0_scratch1.sem := by decide
  have h32 : (cc0_scratch3.sem : DmaSem sig) ≠ cc0_scratch2.sem := by decide
  have h41 : (cc0_scratch4.sem : DmaSem sig) ≠ cc0_scratch1.sem := by decide
  have h42 : (cc0_scratch4.sem : DmaSem sig) ≠ cc0_scratch2.sem := by decide
  have h43 : (cc0_scratch4.sem : DmaSem sig) ≠ cc0_scratch3.sem := by decide
  rw [SparseCore.bigSep_erase' (mem_own d L _),
    SparseCore.bigSep_erase' (Finset.mem_erase.mpr ⟨cell_ne _ h21, mem_own d L _⟩),
    SparseCore.bigSep_erase' (Finset.mem_erase.mpr ⟨cell_ne _ h32, Finset.mem_erase.mpr ⟨cell_ne _ h31, mem_own d L _⟩⟩),
    SparseCore.bigSep_erase' (Finset.mem_erase.mpr ⟨cell_ne _ h43, Finset.mem_erase.mpr ⟨cell_ne _ h42,
      Finset.mem_erase.mpr ⟨cell_ne _ h41, mem_own d L _⟩⟩⟩)]

/-- The subcore's own buffers: the staging buffer, at some contents, and the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- Reading back the whole of a view just written whole gives the payload: what a write-out carries is what the fetch
    before it read. -/
theorem pay_eq {κ : Kind} {sp : Space} {s : Shape} {e : EltTy} (v : View sig κ sp s e) (G : v.ty.Contents (Elt F)) (w w' : s.Idx → Elt F e)
    (h : w = w') : v.read (Elt F) (v.write (Elt F) G w Finset.univ) = w' :=
  (View.read_write_univ G w).trans h

open Lean Elab Tactic in
/-- The write-outs peeled last to first: row `k` for `k = 31, …, 0`, each the step of `RowsDone` at the payload the
    matching fetch read. -/
elab "peel_rows " dd:term:max LL:term:max XX:term:max : tactic => do
  for j in List.range 32 do
    let k := Syntax.mkNumLit (toString (31 - j))
    evalTactic (← `(tactic| refine rowsDone_step $dd $LL $XX $k _ _ (pay_eq _ _ _ _ rfl) ?_))

/-- One more wait recorded at the kernel's own index keeps the record of waits of the required form. -/
theorem waits_ins {W S : Waits sig (HIx 1)} (sm : SemLoc sig) (h : ∀ p ∈ S, p ∈ W ∨ p.2 = none) :
    ∀ p ∈ insert (sm, (default : HIx 1)) S, p ∈ W ∨ p.2 = none := by
  intro p hp
  rcases Finset.mem_insert.mp hp with rfl | hp
  · exact .inr rfl
  · exact h p hp

variable [FloatOps F]

set_option maxHeartbeats 1000000 in
/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp ∗ goP m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_copy L xW (Memref.isWhole_whole _) oW (Memref.isWhole_whole _) sW (Memref.isWhole_whole _) cc0_scratch1 cc0_scratch2 cc0_scratch3 cc0_scratch4)
          fun _ => iprop(tdP m d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__sc_gather_copy_eq_skeleton]; unfold cc0__sc_gather_copy_skel
  rw [(K (F := F)).scopedBufs_V hF d (cV L) (jV L), SparseCore.Cfg.scopedSems0_V (Val := Elt F) d (cV L) (jV L), ownSems0_V, ownBufs_V]
  unfold goP tdP
  iintro ⟨#Hlv, -, ⟨Hx, Ho⟩, ⟨⟨%fb, Hb⟩, Hbufs⟩, ⟨H5, H6, H7, H8, Hsems⟩, HO⟩
  ihave Hmw := ((K (F := F)).mayWaits_none (thr := V d (cV L) (jV L)) hO) $$ Hlv
  ihave Hx := (Entails.of_eq (pts_x (F := F) d L _).symm) $$ Hx
  ihave Ho := (Entails.of_eq (pts_o (F := F) d L _).symm) $$ Ho
  ihave Hb := (Entails.of_eq (pts_s (F := F) d L _).symm) $$ Hb
  sl_exec_parts
  sl_step
  -- the 32 write-outs, last to first: each lands row `k` of `x` on row `k` of the result
  have hv : ∀ i ∈ (oW).view.setOn (TR L).set, tile_body.sl.Ho_w63 m d L fb i = xAsO m d i := by
    refine rowsDone_block d L (m (xLoc d)) _ ?_
    peel_rows d L (m (xLoc d))
    exact rowsDone_zero d L _ _
  ihave Ho := (Entails.of_eq (pointsTo_congr (ℓ := (oW).view.loc (V d (cV L) (jV L))) (q := fullShare) hv)) $$ Ho
  ihave Ho := (Entails.of_eq (pts_o (F := F) d L _)) $$ Ho
  ihave Hx := (Entails.of_eq (pts_x (F := F) d L _)) $$ Hx
  ihave Hb := (Entails.of_eq (pts_s (F := F) d L _)) $$ Hb
  isplitl [Hx Ho]
  · isplitl [Hx]; · iexact Hx
    iexact Ho
  isplitl [Hb Hbufs]
  · isplitl [Hb]; · iexists _; iexact Hb
    iexact Hbufs
  isplitl [H5 H6 H7 H8 Hsems]
  · isplitl [H5]; · iexact H5
    isplitl [H6]; · iexact H6
    isplitl [H7]; · iexact H7
    isplitl [H8]; · iexact H8
    iexact Hsems
  iexists _; isplitr
  rotate_left
  · iexact HO
  ipureintro
  repeat (refine waits_ins _ ?_)
  exact fun p hp => .inl hp

end Tile

/-! ## The launch theorem's obligation -/

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__sc_gather_copy (coordsV c s)
          xW (Memref.isWhole_whole _) oW (Memref.isWhole_whole _) sW (Memref.isWhole_whole _) cc0_scratch1 cc0_scratch2 cc0_scratch3 cc0_scratch4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The worker the call's grid names `(c, i)` is the worker of that grid point. -/
theorem wOf_eq (c : Fin ((K (F := F)).nCore 0)) (i : Fin ((K (F := F)).nSub 0))
    (h0 : ((K (F := F)).core 0 c).val < grid0.bound 0) (h1 : ((K (F := F)).sub 0 i).val < grid0.bound 1) :
    wOf (Fin.cast nCore_zero c) (Fin.cast nSub_zero i) = wL (coordsV ⟨_, h0⟩ ⟨_, h1⟩) := Fin.ext rfl

/-- Every vector subcore of the call's grid runs the task: from its blocks to its blocks, the result's holding `x`. -/
theorem tileObl [FloatOps F] (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show iprop(_ ∗ _ ∗ goP m d (wOf (Fin.cast nCore_zero c) (Fin.cast nSub_zero i)) ∗ _)
    ⊢ wp _ _ _ _ (fun _ => iprop(tdP m d (wOf (Fin.cast nCore_zero c) (Fin.cast nSub_zero i)) ∗ _))
  rw [wOf_eq c i hc.1 hc.2]
  exact (tile_body m d (coordsV ⟨_, hc.1⟩ ⟨_, hc.2⟩) hF O W hO).trans (wp_mono frame _ _ fun _ => obl_post)

end Cert.Kernel.Frame

end
-- ==== Proof.KernelLaunch.lean ====
/-
  The launch of the copy kernel: from "every worker's task is proved" to the run of the whole program.

  The mathematics is a partition and a bijection. The 32 row blocks `blk w` (the `w`-th of 32 equal parts of the
  1024 rows) are pairwise disjoint and cover the array, so holding an array whole, at one function `f`, IS holding
  each of its 32 blocks at `f` — an equation, read in both directions. The map `(c, i) ↦ 2 i + c` from
  (SparseCore, subcore) to workers is a bijection of `Fin 2 × Fin 16` with `Fin 32`, so the 32 blocks taken once each
  are the blocks of the 16 workers of SparseCore 0 and of the 16 workers of SparseCore 1.

  Going out, the TensorCore holds the argument array and the result array whole, at their launch contents; it hands
  SparseCore `c` the blocks of its sixteen workers. Coming back, every block of the argument is unchanged and every block
  of the result array is held at the ONE function "the contents of the argument", so the blocks join to the two arrays
  whole: the argument as it was, the result equal to the argument.
-/
import proofs.«204742_g3796751089860_cont_8to1_b_745_9_alg».proof.Proof.KernelSetup
import Idealize.ShloMosaic.Lib.SparseCore.Launch
import Idealize.ShloMosaic.Lib.Pipeline.Kit
import Idealize.ShloMosaic.Lib.Tactic

noncomputable section

namespace Cert.Kernel.Frame

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## What the call's record says, field by field -/

theorem P_st0 (d : Dev nD) (c : Fin ((K (F := F)).nCore 0)) :
    (P m).st 0 d c = bigSep Finset.univ fun i : Fin ((K (F := F)).nSub 0) => goP m d (wOf (Fin.cast nCore_zero c) (Fin.cast nSub_zero i)) := rfl
theorem P_dn0 (d : Dev nD) (c : Fin ((K (F := F)).nCore 0)) :
    (P m).dn 0 d c = bigSep Finset.univ fun i : Fin ((K (F := F)).nSub 0) => tdP m d (wOf (Fin.cast nCore_zero c) (Fin.cast nSub_zero i)) := rfl
theorem P_go0 (d : Dev nD) (c : Fin ((K (F := F)).nCore 0)) (i : Fin ((K (F := F)).nSub 0)) :
    (P m).go 0 d c i = goP m d (wOf (Fin.cast nCore_zero c) (Fin.cast nSub_zero i)) := rfl
theorem P_td0 (d : Dev nD) (c : Fin ((K (F := F)).nCore 0)) (i : Fin ((K (F := F)).nSub 0)) :
    (P m).td 0 d c i = tdP m d (wOf (Fin.cast nCore_zero c) (Fin.cast nSub_zero i)) := rfl

/-! ## A SparseCore's operands ARE its sixteen workers' blocks -/

/-- What SparseCore `c` is handed is, by definition, what its sixteen workers are handed, and what it hands back is
    what they hand back: nothing to split, nothing to join. -/
theorem vecSplit : (K (F := F)).VecSplit' (P m) 0 := by
  intro d c
  simp only [P_st0, P_dn0, P_go0, P_td0]
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P m).x q thr) = (iprop(emp) : sProp 𝕄) from by
    show (bigSep Finset.univ fun _ : Thread nD τ => bigSep Finset.univ fun _ : Fin 1 => (iprop(emp) : sProp 𝕄)) = iprop(emp)
    rw [bigSep_congr fun _ _ => bigSep_emp' _, bigSep_emp']]
  iempintro

/-! ## The partition of an array into the 32 row blocks -/

theorem blk_disjoint : ∀ w ∈ (Finset.univ : Finset (Fin 32)), ∀ w' ∈ (Finset.univ : Finset (Fin 32)), w ≠ w' → Disjoint (blkSet w) (blkSet w') :=
  fun _ _ _ _ h => Rect.part_disjoint hdiv h
theorem blk_cover : (Finset.univ : Finset (Fin 32)).biUnion blkSet = Finset.univ := Rect.biUnion_part hdiv

/-- An array held whole at `f` is its 32 row blocks, each held at `f`. -/
theorem xPts_blocks (d : Dev nD) (f : Buf (Elt F) (xLoc d)) :
    (xLoc d ↦{fullShare} f : sProp 𝕄) = bigSep Finset.univ fun w : Fin 32 => xLoc d ↦[blkSet w]{fullShare} f := by
  rw [← pointsTo_biUnion Finset.univ (ℓ := xLoc d) blkSet blk_disjoint, blk_cover]; try rfl
theorem oPts_blocks (d : Dev nD) (f : Buf (Elt F) (oLoc d)) :
    (oLoc d ↦{fullShare} f : sProp 𝕄) = bigSep Finset.univ fun w : Fin 32 => oLoc d ↦[blkSet w]{fullShare} f := by
  rw [← pointsTo_biUnion Finset.univ (ℓ := oLoc d) blkSet blk_disjoint, blk_cover]; try rfl

/-! ## The bijection between (SparseCore, subcore) and workers -/

/-- `(c, i) ↦ 2 i + c`, with inverse `w ↦ (w mod 2, w div 2)`. -/
def wEquiv : Fin 2 × Fin 16 ≃ Fin 32 where
  toFun p := wOf p.1 p.2
  invFun w := (⟨w.val % 2, Nat.mod_lt _ (by decide)⟩, ⟨w.val / 2, by have := w.isLt; omega⟩)
  left_inv p := by
    obtain ⟨⟨c, hc⟩, ⟨i, hi⟩⟩ := p
    refine Prod.ext (Fin.ext ?_) (Fin.ext ?_)
    · show (2 * i + c) % 2 = c; omega
    · show (2 * i + c) / 2 = i; omega
  right_inv w := by
    refine Fin.ext ?_
    show 2 * (w.val / 2) + w.val % 2 = w.val; omega

/-- Something for every worker is something for every subcore of every SparseCore. -/
theorem bigSep_workers (Φ : Fin 32 → sProp 𝕄) :
    bigSep Finset.univ Φ = bigSep Finset.univ fun c : Fin 2 => bigSep Finset.univ fun i : Fin 16 => Φ (wOf c i) := by
  rw [bigSep_univ_equiv wEquiv Φ, bigSep_univ_prod]; rfl

/-- The launch theorem counts SparseCores and subcores by the kernel's own grid, `2` and `16`: only the indices' types differ. -/
theorem bigSep_grid (Φ : Fin 2 → Fin 16 → sProp 𝕄) :
    (bigSep Finset.univ fun c : Fin ((K (F := F)).nCore 0) => bigSep Finset.univ fun i : Fin ((K (F := F)).nSub 0) =>
        Φ (Fin.cast nCore_zero c) (Fin.cast nSub_zero i))
      = bigSep Finset.univ fun c : Fin 2 => bigSep Finset.univ fun i : Fin 16 => Φ c i :=
  bigSep_congr fun _ _ => bigSep_congr fun _ _ => congrArg₂ Φ (Fin.ext rfl) (Fin.ext rfl)

/-! ## What the call takes and what it gives back, as whole arrays -/

/-- Going out: the two arrays whole, at their launch contents. -/
theorem st0_eq (d : Dev nD) :
    (bigSep Finset.univ fun c : Fin ((K (F := F)).nCore 0) => (P m).st 0 d c)
      = iprop((xLoc d ↦{fullShare} m (xLoc d)) ∗ (oLoc d ↦{fullShare} m (oLoc d))) := by
  simp only [P_st0]
  rw [bigSep_grid (F := F) (fun c i => goP m d (wOf c i)), ← bigSep_workers (F := F) (fun w => goP m d w)]
  unfold goP
  rw [bigSep_sep', ← xPts_blocks, ← oPts_blocks]

/-- Coming back: the argument whole and unchanged, the result array whole and equal to the argument. -/
theorem dn0_eq (d : Dev nD) :
    (bigSep Finset.univ fun c : Fin ((K (F := F)).nCore 0) => (P m).dn 0 d c)
      = iprop((xLoc d ↦{fullShare} m (xLoc d)) ∗ (oLoc d ↦{fullShare} xAsO m d)) := by
  simp only [P_dn0]
  rw [bigSep_grid (F := F) (fun c i => tdP m d (wOf c i)), ← bigSep_workers (F := F) (fun w => tdP m d w)]
  unfold tdP
  rw [bigSep_sep', ← xPts_blocks, ← oPts_blocks]

/-! ## @main on the TensorCore -/

/-- The TensorCore's arrays that outlive every kernel are exactly the argument and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What @main leaves the claim: the argument at its launch contents, the result array holding the argument's contents. -/
abbrev FIN (d : Dev nD) : sProp 𝕄 := iprop((xLoc d ↦{fullShare} m (xLoc d)) ∗ (oLoc d ↦{fullShare} xAsO m d))

/-- @main on device `d`'s TensorCore: the one call, from the two arrays whole and back to them. -/
theorem hmain [FloatOps F] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho⟩, -, -⟩, -⟩
  iapply ((K (F := F)).wp_run (D (F := F)) 𝒱 (EH := EH) (P := P m) κ d 0) $$ [Hst Hx Ho]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitl [Hx]; · iexact Hx
  iexact Ho

/-! ## Reading the final memory -/

def fq (d : Dev nD) (s' : Phys nD τ sig (Elt F)) : Prop := s'.mem.mem (oLoc d) = xAsO m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := oLoc d) (I := Finset.univ) (q := fullShare) (f := xAsO m d))) $$ [HSI Ho]
  · isplitl [HSI] <;> iassumption
  icases H with ⟨%h1, HSI, -⟩
  ihave H := (SI_pointsTo_agree (st := s') (ℓ := xLoc d) (I := Finset.univ) (q := fullShare) (f := m (xLoc d))) $$ [HSI Hx]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD, r.2.mem (oLoc c) = xAsO m c ∧ r.2.mem (xLoc c) = m (xLoc c)

/-- Given every worker's task, the whole program runs; at the end, on every device, the result array holds the
    argument's launch contents and the argument is unchanged. -/
theorem run_main [FloatOps F] [∀ e, Nonempty (Elt F e)] (hT : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Kernel.Frame

end
-- ==== Proof.KernelIdealSetup.lean ====
/-
  The vocabulary shared by the copy kernel's task and its launch.

  The kernel runs on the 2 × 16 vector subcores of the device's two SparseCores. Subcore `i` of SparseCore `c` is
  worker `2 i + c`; it moves rows `[32 (2 i + c), 32 (2 i + c) + 32)` of the argument array `x : f32[1024, 64, 768]`
  into the same rows of the result array, one row (a `[64, 768]` slab) at a time through a two-slot staging buffer.
  The 32 row blocks partition the 1024 rows, so no two workers touch a common element of either array.

  Stated here: the arrays as locations and as the kernel's memrefs; the row blocks (`blk w`, the `w`-th of 32 equal
  parts along axis 0) and the worker that owns each (`wOf`); and what the one SparseCore call hands over and takes
  back. Going out, worker `w` receives block `w` of `x` and block `w` of the result array, each at its launch
  contents; coming back, block `w` of `x` is unchanged and block `w` of the result holds `x`'s values there. Every
  returned result block is stated at the ONE whole-array function "the contents of `x`", so the blocks join to the
  whole array by the partition alone.
-/
import proofs.«204742_g3796751089860_cont_8to1_b_745_9_alg».proof.KernelIdeal
import proofs.«204742_g3796751089860_cont_8to1_b_745_9_alg».proof.Proof.Gen.KernelIdeal
import Idealize.ShloMosaic.Lib.SparseCore.Launch
import Idealize.ShloMosaic.Lib.Pipeline.Kit
import Idealize.ShloMosaic.Lib.Tactic

noncomputable section

namespace Cert.KernelIdeal.Frame

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the two arrays, the row blocks -/

variable (m : (ℓ : Loc nD τ sig) → Buf (Elt F) ℓ) (ρ : Dev nD → PrngReg)

/-- The argument array `x` and the result array, as locations of device `d`. -/
abbrev xLoc (d : Dev nD) : Loc nD τ sig := (SparseCore.T d).loc main_arg0
abbrev oLoc (d : Dev nD) : Loc nD τ sig := (SparseCore.T d).loc main_v0

/-- The contents of `x` read as contents of the result array: the two arrays have one shape and one element type. -/
abbrev xAsO (d : Dev nD) : Buf (Elt F) (oLoc d) := m (xLoc d)

theorem hdiv : 32 ∣ S1024x64x768.size 0 := ⟨32, rfl⟩
/-- Row block `w`: rows `[32 w, 32 w + 32)`, every column, every lane. -/
abbrev blk (w : Fin 32) : Rect S1024x64x768 := Rect.part (s := S1024x64x768) (a₀ := 0) hdiv w
abbrev blkSet (w : Fin 32) : Finset S1024x64x768.Idx := (blk w).set

/-- The worker on subcore `i` of SparseCore `c`: `2 i + c`. -/
def wOf (c : Fin 2) (i : Fin 16) : Fin 32 := ⟨2 * i.val + c.val, by omega⟩

/-! ## What the handshakes carry -/

abbrev xBlk (d : Dev nD) (w : Fin 32) : sProp 𝕄 := xLoc d ↦[blkSet w]{fullShare} m (xLoc d)
abbrev oBlk (d : Dev nD) (w : Fin 32) (f : Buf (Elt F) (oLoc d)) : sProp 𝕄 := oLoc d ↦[blkSet w]{fullShare} f

/-- Going out to worker `w`: its block of `x`, its block of the result array at the launch contents. -/
def goP (d : Dev nD) (w : Fin 32) : sProp 𝕄 := iprop(xBlk m d w ∗ oBlk d w (m (oLoc d)))
/-- Coming back from worker `w`: its block of `x` as it was, its block of the result array holding `x`'s values. -/
def tdP (d : Dev nD) (w : Fin 32) : sProp 𝕄 := iprop(xBlk m d w ∗ oBlk d w (xAsO m d))

instance goP_storable (d : Dev nD) (w : Fin 32) : BI.Storable (upEmb : UEmb _ 𝕄) (goP m d w) := by unfold goP; infer_instance
instance tdP_storable (d : Dev nD) (w : Fin 32) : BI.Storable (upEmb : UEmb _ 𝕄) (tdP m d w) := by unfold tdP; infer_instance

/-- The one call: a SparseCore takes its sixteen workers' blocks and brings them back. -/
def P : (K (F := F)).Pay (nD := nD) (Val := Elt F) (Name := ℕ) (U := UU) where
  st := fun q d c => match q with
    | 0 => bigSep Finset.univ fun i : Fin ((K (F := F)).nSub 0) => goP m d (wOf (Fin.cast nCore_zero c) (Fin.cast nSub_zero i))
  dn := fun q d c => match q with
    | 0 => bigSep Finset.univ fun i : Fin ((K (F := F)).nSub 0) => tdP m d (wOf (Fin.cast nCore_zero c) (Fin.cast nSub_zero i))
  go := fun q d c i => match q with | 0 => goP m d (wOf (Fin.cast nCore_zero c) (Fin.cast nSub_zero i))
  td := fun q d c i => match q with | 0 => tdP m d (wOf (Fin.cast nCore_zero c) (Fin.cast nSub_zero i))
  x := fun _ _ => iprop(emp)

instance P_storable : (P (F := F) m).IsStorable where
  st q d c := match q with
    | 0 => (inferInstance : BI.Storable (upEmb : UEmb _ 𝕄)
        (bigSep Finset.univ fun i : Fin ((K (F := F)).nSub 0) => goP m d (wOf (Fin.cast nCore_zero c) (Fin.cast nSub_zero i))))
  dn q d c := match q with
    | 0 => (inferInstance : BI.Storable (upEmb : UEmb _ 𝕄)
        (bigSep Finset.univ fun i : Fin ((K (F := F)).nSub 0) => tdP m d (wOf (Fin.cast nCore_zero c) (Fin.cast nSub_zero i))))
  go q d c i := match q with
    | 0 => (inferInstance : BI.Storable (upEmb : UEmb _ 𝕄) (goP m d (wOf (Fin.cast nCore_zero c) (Fin.cast nSub_zero i))))
  td q d c i := match q with
    | 0 => (inferInstance : BI.Storable (upEmb : UEmb _ 𝕄) (tdP m d (wOf (Fin.cast nCore_zero c) (Fin.cast nSub_zero i))))

end Cert.KernelIdeal.Frame

end
-- ==== Proof.KernelIdealRows.lean ====
/-
  The worker's block, row by row.

  Worker `(c, i)` (SparseCore `c`, subcore `i`; grid point `L`) owns rows `[64 i + 32 c, 64 i + 32 c + 32)` of both
  arrays: the rectangle `TR L`. Its `k`-th transfer pair moves row `64 i + 32 c + k` of `x` — the slab `xRow L k` —
  through the staging buffer into the same row of the result — the slab `oRow L k`. Writing the whole of a row slab
  puts the payload at that row's elements and changes no other element; the rows of a block are pairwise disjoint and
  cover it. So after `k` pairs the first `k` rows of the block hold `x`'s values (`RowsDone`), one more pair extends
  that by a row (`rowsDone_step`), and after 32 the whole block does (`rowsDone_block`).
-/
import proofs.«204742_g3796751089860_cont_8to1_b_745_9_alg».proof.Proof.KernelIdealSetup

noncomputable section

namespace Cert.KernelIdeal.Frame

open Cert.KernelIdeal Cert.KernelIdeal.Gen

open Idealize.ShloMosaic
open Idealize.ShloMosaic.SparseCore (S V T)
open Idealize.SL Idealize.SL.Sem

variable {F : FTy → Type}

/-- The SparseCore and the subcore of grid point `L`. -/
abbrev cV (L : grid0.Coords) : Fin τ.nSC := (L 0).castLE hcore0
abbrev jV (L : grid0.Coords) : Fin τ.nSub := (L 1).castLE hsub0

/-- The worker at grid point `L`. -/
def wL (L : grid0.Coords) : Fin 32 := ⟨2 * (L 1).val + (L 0).val, by
  have h0 : (L 0).val < 2 := (L 0).isLt
  have h1 : (L 1).val < 16 := (L 1).isLt
  omega⟩

theorem TR_inb (L : grid0.Coords) : ∀ a, (![64 * (L 1).val + 32 * (L 0).val, 0, 0] : Fin 3 → Nat) a + (![32, 64, 768] : Fin 3 → Nat) a ≤ S1024x64x768.size a := by
  have h0 : (L 0).val < 2 := (L 0).isLt
  have h1 : (L 1).val < 16 := (L 1).isLt
  intro a
  match a with
  | 0 => show 64 * (L 1).val + 32 * (L 0).val + 32 ≤ 1024; omega
  | 1 => show 0 + 64 ≤ 64; omega
  | 2 => show 0 + 768 ≤ 768; omega
/-- The worker's rows as one rectangle: 32 rows from row `64 (L 1) + 32 (L 0)`. -/
abbrev TR (L : grid0.Coords) : Rect S1024x64x768 := Rect.unit (s := S1024x64x768) ![64 * (L 1).val + 32 * (L 0).val, 0, 0] ![32, 64, 768] (TR_inb L)

/-! ### Membership in the rectangles, read off the row coordinate

Every rectangle here is whole on the column and lane axes, so whether an element lies in it is a statement about
its row alone. -/

theorem idx1_lt (i : S1024x64x768.Idx) : (i 1 : ℕ) < 64 := (i 1).isLt
theorem idx2_lt (i : S1024x64x768.Idx) : (i 2 : ℕ) < 768 := (i 2).isLt

/-- An element lies in the worker's rectangle exactly when its row is one of the worker's 32. -/
theorem mem_TR (L : grid0.Coords) (i : S1024x64x768.Idx) :
    i ∈ (TR L).set ↔ 64 * (L 1).val + 32 * (L 0).val ≤ (i 0 : ℕ) ∧ (i 0 : ℕ) < 64 * (L 1).val + 32 * (L 0).val + 32 := by
  rw [Rect.mem_set_unit]
  refine ⟨fun h => h 0, fun h a => ?_⟩
  match a with
  | 0 => exact h
  | 1 => have := idx1_lt i; show 0 ≤ (i 1 : ℕ) ∧ (i 1 : ℕ) < 0 + 64; omega
  | 2 => have := idx2_lt i; show 0 ≤ (i 2 : ℕ) ∧ (i 2 : ℕ) < 0 + 768; omega

/-- An element lies in part `w` of the cut into 32 exactly when its row lies in `[32 w, 32 w + 32)`. -/
theorem mem_blk (w : Fin 32) (i : S1024x64x768.Idx) :
    i ∈ blkSet w ↔ w.val * 32 ≤ (i 0 : ℕ) ∧ (i 0 : ℕ) < w.val * 32 + 32 := by
  show i ∈ (Rect.unit _ _ _).set ↔ _
  rw [Rect.mem_set_unit]
  refine ⟨fun h => h 0, fun h a => ?_⟩
  match a with
  | 0 => exact h
  | 1 => have := idx1_lt i; show 0 * 64 ≤ (i 1 : ℕ) ∧ (i 1 : ℕ) < 0 * 64 + 64; omega
  | 2 => have := idx2_lt i; show 0 * 768 ≤ (i 2 : ℕ) ∧ (i 2 : ℕ) < 0 * 768 + 768; omega

/-- The worker's rectangle is its block of the partition into 32 parts. -/
theorem TR_set (L : grid0.Coords) : (TR L).set = blkSet (wL L) := by
  have h0 : (L 0).val < 2 := (L 0).isLt
  have h1 : (L 1).val < 16 := (L 1).isLt
  ext i
  rw [mem_TR, mem_blk]
  show _ ↔ (2 * (L 1).val + (L 0).val) * 32 ≤ (i 0 : ℕ) ∧ (i 0 : ℕ) < (2 * (L 1).val + (L 0).val) * 32 + 32
  omega

/-- Row `k` of the worker's block of `x`, as the kernel slices and squeezes it: a `[64, 768]` slab. -/
abbrev xRow (L : grid0.Coords) (k : Fin 32) : Memref sig .scVector .hbm S64x768 .f32 :=
  ((Memref.whole main_arg0_scv : Memref sig .scVector .hbm S1024x64x768 .f32).slice
    (Rect.unit (s := S1024x64x768) (k0_off1 L (BitVec.ofNat 32 k.val)) S1x64x768.size (k0_off1_inb L k)) (fun _ => rfl)).squeeze S64x768 squeezes_S1x64x768_S64x768
/-- The same row of the result array. -/
abbrev oRow (L : grid0.Coords) (k : Fin 32) : Memref sig .scVector .hbm S64x768 .f32 :=
  ((Memref.whole main_v0_scv : Memref sig .scVector .hbm S1024x64x768 .f32).slice
    (Rect.unit (s := S1024x64x768) (k0_off1 L (BitVec.ofNat 32 k.val)) S1x64x768.size (k0_off1_inb L k)) (fun _ => rfl)).squeeze S64x768 squeezes_S1x64x768_S64x768

/-! ### One row slab

The slab of row `k` is sliced off the whole array by the rectangle of thickness one at row `64 (L 1) + 32 (L 0) + k`,
then re-indexed by `[64, 768]`; re-indexing changes no element, so the slab's elements are the rectangle's, and the
two arrays' slabs — same shape, same rectangle — sit at the same indices. -/

/-- The rectangle the kernel slices row `k` by. -/
abbrev rowRect (L : grid0.Coords) (k : Fin 32) : Rect S1024x64x768 :=
  Rect.unit (s := S1024x64x768) (k0_off1 L (BitVec.ofNat 32 k.val)) S1x64x768.size (k0_off1_inb L k)

/-- An element lies in row `k`'s rectangle exactly when its row is `64 (L 1) + 32 (L 0) + k`. -/
theorem mem_rowRect (L : grid0.Coords) (k : Fin 32) (i : S1024x64x768.Idx) :
    i ∈ (rowRect L k).set ↔ (i 0 : ℕ) = 64 * (L 1).val + 32 * (L 0).val + k.val := by
  rw [Rect.mem_set_unit, k0_off1_eq L k]
  constructor
  · intro h
    have h0 : 64 * (L 1).val + 32 * (L 0).val + k.val ≤ (i 0 : ℕ) ∧ (i 0 : ℕ) < 64 * (L 1).val + 32 * (L 0).val + k.val + 1 := h 0
    omega
  · intro h a
    match a with
    | 0 => show 64 * (L 1).val + 32 * (L 0).val + k.val ≤ (i 0 : ℕ) ∧ (i 0 : ℕ) < 64 * (L 1).val + 32 * (L 0).val + k.val + 1; omega
    | 1 => have := idx1_lt i; show 0 ≤ (i 1 : ℕ) ∧ (i 1 : ℕ) < 0 + 64; omega
    | 2 => have := idx2_lt i; show 0 ≤ (i 2 : ℕ) ∧ (i 2 : ℕ) < 0 + 768; omega

/-- The elements under row `k`'s slab of the result array are the rectangle's. -/
theorem oRow_set (L : grid0.Coords) (k : Fin 32) : (oRow L k).view.set = (rowRect L k).set := by
  show (((View.whole main_v0_scv).slice (rowRect L k)).reshape S64x768 _).set = _
  rw [View.set_reshape, View.set_slice_whole]

/-- Every element of row `k`'s slab has row coordinate `64 (L 1) + 32 (L 0) + k`. -/
theorem oRow_emb_row (L : grid0.Coords) (k : Fin 32) (y : S64x768.Idx) :
    (((oRow L k).view.emb y : S1024x64x768.Idx) 0 : ℕ) = 64 * (L 1).val + 32 * (L 0).val + k.val :=
  (mem_rowRect L k _).mp (by rw [← oRow_set]; exact View.emb_mem_set _ y)

/-- The slab of row `k` of the argument and that of the result sit at the same indices. -/
theorem xRow_emb_eq (L : grid0.Coords) (k : Fin 32) (y : S64x768.Idx) :
    ((xRow L k).view.emb y : S1024x64x768.Idx) = (oRow L k).view.emb y := rfl

variable (d : Dev nD) (L : grid0.Coords)

/-- The first `k` rows of the worker's block of `f` (contents of the result array) hold `X`'s values (contents of `x`). -/
def RowsDone (X : Buf (Elt F) (xLoc d)) (k : Nat) (f : Buf (Elt F) (oLoc d)) : Prop :=
  ∀ r : Fin 32, r.val < k → ∀ y : S64x768.Idx, f ((oRow L r).view.emb y) = X ((xRow L r).view.emb y)

theorem rowsDone_zero (X : Buf (Elt F) (xLoc d)) (f : Buf (Elt F) (oLoc d)) :
    RowsDone d L X 0 f := fun r h => absurd h (Nat.not_lt_zero _)

/-- One more transfer pair: the payload read from row `k` of `X`, written whole into row `k` of `f`. -/
theorem rowsDone_step (X : Buf (Elt F) (xLoc d)) (k : Fin 32) (f : Buf (Elt F) (oLoc d))
    (w : S64x768.Idx → Elt F .f32) (hw : w = (xRow L k).view.read (Elt F) X) (h : RowsDone d L X k.val f) :
    RowsDone d L X (k.val + 1) ((oRow L k).view.write (Elt F) f w Finset.univ) := by
  intro r hr y
  rcases Nat.lt_succ_iff_lt_or_eq.mp hr with hlt | heq
  · -- an earlier row: its elements are not under row `k`'s slab, so the write leaves them
    have hne : ((oRow L r).view.emb y : S1024x64x768.Idx) ∉ (oRow L k).view.setOn Finset.univ := by
      rw [View.setOn_univ, oRow_set, mem_rowRect, oRow_emb_row]; omega
    rw [View.write_of_not_mem _ _ _ hne]
    exact h r hlt y
  · -- row `k` itself: the write puts the payload there, and the payload is `X` read at the same indices
    have hrk : r = k := Fin.ext heq
    subst hrk
    rw [View.write_emb_of_mem _ _ (Finset.mem_univ y), hw, View.read_apply, cast_cast, cast_eq]

/-- All 32 rows done: the block holds `X`'s values. -/
theorem rowsDone_block (X : Buf (Elt F) (xLoc d)) (f : Buf (Elt F) (oLoc d))
    (h : RowsDone d L X 32 f) :
    ∀ i ∈ (Memref.whole main_v0_scv : Memref sig .scVector .hbm S1024x64x768 .f32).view.setOn (TR L).set, f i = X i := by
  intro i hi
  obtain ⟨x, hx, rfl⟩ := Finset.mem_map.mp hi
  show f x = X x
  have hx' := (mem_TR L x).mp hx
  have hr : (x 0 : ℕ) - (64 * (L 1).val + 32 * (L 0).val) < 32 := by omega
  -- the element's row is row `r` of the block, so it lies under that row's slab
  have hmem : x ∈ (oRow L ⟨_, hr⟩).view.set := by
    rw [oRow_set, mem_rowRect]
    show (x 0 : ℕ) = 64 * (L 1).val + 32 * (L 0).val + ((x 0 : ℕ) - (64 * (L 1).val + 32 * (L 0).val)); omega
  obtain ⟨y, -, hy⟩ := Finset.mem_map.mp hmem
  have hry := h ⟨_, hr⟩ hr y
  rw [xRow_emb_eq, hy] at hry
  exact hry

end Cert.KernelIdeal.Frame

end
-- ==== Proof.KernelIdealTile.lean ====
/-
  One worker's task of the copy kernel, and the launch theorem's obligation for it.

  Worker `(c, i)` holds its block of `x` and of the result array (32 rows each), its two-slot staging buffer and four
  transfer counters at zero. For each of its rows `k = 0, …, 31`, in the kernel's double-buffered order, it copies row `k`
  of `x` into staging slot `k mod 2`, waits for that copy, copies the slot into row `k` of the result, and waits for
  that copy before the slot is filled again two rows later. Every counter carries one copy at a time and no buffer is
  touched between a copy's issue and its wait, so the run is determined: the payload the `k`-th write-out carries is what
  the `k`-th fetch read — row `k` of `x` (reading back the whole of what was just written whole gives the payload) —
  and it lands on row `k` of the result whole. After the 32 pairs the block of the result holds `x`'s values
  (`RowsDone`, row by row), `x`'s block is as it was, and the counters are back at zero.
-/
import proofs.«204742_g3796751089860_cont_8to1_b_745_9_alg».proof.Proof.KernelIdealSetup
import proofs.«204742_g3796751089860_cont_8to1_b_745_9_alg».proof.Proof.KernelIdealRows
import proofs.«204742_g3796751089860_cont_8to1_b_745_9_alg».proof.Proof.Gen.KernelIdeal.Skeleton
import Idealize.ShloMosaic.Lib.SparseCore.Launch
import Idealize.ShloMosaic.Lib.Pipeline.Kit
import Idealize.ShloMosaic.Lib.Tactic

noncomputable section

namespace Cert.KernelIdeal.Frame

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "xW" => (Memref.whole Cert.KernelIdeal.main_arg0_scv : Memref Cert.KernelIdeal.sig Kind.scVector Space.hbm Cert.KernelIdeal.S1024x64x768 EltTy.f32)
local notation "oW" => (Memref.whole Cert.KernelIdeal.main_v0_scv : Memref Cert.KernelIdeal.sig Kind.scVector Space.hbm Cert.KernelIdeal.S1024x64x768 EltTy.f32)
local notation "sW" => (Memref.whole Cert.KernelIdeal.cc0_scratch0 : Memref Cert.KernelIdeal.sig Kind.scVector Space.vmem Cert.KernelIdeal.S2x64x768 EltTy.f32)

/-! ## The worker's holdings, as the launch hands them over and as the kernel addresses them -/

section Tile

variable (d : Dev nD) (L : grid0.Coords)

/-- The worker's block of `x`, held under the worker's rectangle of the kernel's whole-array memref, is block `wL L`. -/
theorem pts_x (f : Buf (Elt F) (xLoc d)) :
    ((xW).view.loc (V d (cV L) (jV L)) ↦[(xW).view.setOn (TR L).set]{fullShare} f : sProp 𝕄) = xLoc d ↦[blkSet (wL L)]{fullShare} f := by
  have e : (xW).view.setOn (TR L).set = blkSet (wL L) := by
    rw [← TR_set]; exact Finset.map_refl
  exact congrArg (fun I => (xLoc d ↦[I]{fullShare} f : sProp 𝕄)) e
/-- The same for the result array. -/
theorem pts_o (f : Buf (Elt F) (oLoc d)) :
    ((oW).view.loc (V d (cV L) (jV L)) ↦[(oW).view.setOn (TR L).set]{fullShare} f : sProp 𝕄) = oLoc d ↦[blkSet (wL L)]{fullShare} f := by
  have e : (oW).view.setOn (TR L).set = blkSet (wL L) := by
    rw [← TR_set]; exact Finset.map_refl
  exact congrArg (fun I => (oLoc d ↦[I]{fullShare} f : sProp 𝕄)) e
/-- The staging buffer whole. -/
theorem pts_s (f : Buf (Elt F) ((V d (cV L) (jV L)).loc cc0_scratch0)) :
    ((sW).view.loc (V d (cV L) (jV L)) ↦{fullShare} f : sProp 𝕄) = (V d (cV L) (jV L)).loc cc0_scratch0 ↦{fullShare} f := rfl

/-- The worker's four transfer counters. -/
abbrev cell5 : GSem nD τ sig := (V d (cV L) (jV L), .dma cc0_scratch1.sem)
abbrev cell6 : GSem nD τ sig := (V d (cV L) (jV L), .dma cc0_scratch2.sem)
abbrev cell7 : GSem nD τ sig := (V d (cV L) (jV L), .dma cc0_scratch3.sem)
abbrev cell8 : GSem nD τ sig := (V d (cV L) (jV L), .dma cc0_scratch4.sem)

theorem cell_ne (thr : Thread nD τ) {a b : DmaSem sig} (h : a ≠ b) : ((thr, SemLoc.dma a) : GSem nD τ sig) ≠ (thr, SemLoc.dma b) :=
  fun e => h (SemLoc.dma.inj (Prod.mk.inj e).2)

theorem mem_own (a : DmaSem sig) : ((V d (cV L) (jV L), SemLoc.dma a) : GSem nD τ sig) ∈ ownCells (V d (cV L) (jV L)) :=
  (mem_ownCells (g := ((V d (cV L) (jV L), SemLoc.dma a) : GSem nD τ sig))).mpr ⟨rfl, by
    show (SemLoc.dma a : SemLoc sig).isScoped .scVector = true; rfl⟩

/-- The subcore's own counters at zero: the four the kernel names, and the rest. -/
theorem ownSems0_V :
    (ownSems0 (V d (cV L) (jV L)) : sProp 𝕄)
      = iprop(semVal (cell5 d L) 0 ∗ semVal (cell6 d L) 0 ∗ semVal (cell7 d L) 0 ∗ semVal (cell8 d L) 0
          ∗ bigSep (((((ownCells (V d (cV L) (jV L))).erase (cell5 d L)).erase (cell6 d L)).erase (cell7 d L)).erase (cell8 d L)) fun g => semVal g 0) := by
  unfold SparseCore.Cfg.ownSems0
  have h21 : (cc0_scratch2.sem : DmaSem sig) ≠ cc0_scratch1.sem := by decide
  have h31 : (cc0_scratch3.sem : DmaSem sig) ≠ cc0_scratch1.sem := by decide
  have h32 : (cc0_scratch3.sem : DmaSem sig) ≠ cc0_scratch2.sem := by decide
  have h41 : (cc0_scratch4.sem : DmaSem sig) ≠ cc0_scratch1.sem := by decide
  have h42 : (cc0_scratch4.sem : DmaSem sig) ≠ cc0_scratch2.sem := by decide
  have h43 : (cc0_scratch4.sem : DmaSem sig) ≠ cc0_scratch3.sem := by decide
  rw [SparseCore.bigSep_erase' (mem_own d L _),
    SparseCore.bigSep_erase' (Finset.mem_erase.mpr ⟨cell_ne _ h21, mem_own d L _⟩),
    SparseCore.bigSep_erase' (Finset.mem_erase.mpr ⟨cell_ne _ h32, Finset.mem_erase.mpr ⟨cell_ne _ h31, mem_own d L _⟩⟩),
    SparseCore.bigSep_erase' (Finset.mem_erase.mpr ⟨cell_ne _ h43, Finset.mem_erase.mpr ⟨cell_ne _ h42,
      Finset.mem_erase.mpr ⟨cell_ne _ h41, mem_own d L _⟩⟩⟩)]

/-- The subcore's own buffers: the staging buffer, at some contents, and the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- Reading back the whole of a view just written whole gives the payload: what a write-out carries is what the fetch
    before it read. -/
theorem pay_eq {κ : Kind} {sp : Space} {s : Shape} {e : EltTy} (v : View sig κ sp s e) (G : v.ty.Contents (Elt F)) (w w' : s.Idx → Elt F e)
    (h : w = w') : v.read (Elt F) (v.write (Elt F) G w Finset.univ) = w' :=
  (View.read_write_univ G w).trans h

open Lean Elab Tactic in
/-- The write-outs peeled last to first: row `k` for `k = 31, …, 0`, each the step of `RowsDone` at the payload the
    matching fetch read. -/
elab "peel_rows " dd:term:max LL:term:max XX:term:max : tactic => do
  for j in List.range 32 do
    let k := Syntax.mkNumLit (toString (31 - j))
    evalTactic (← `(tactic| refine rowsDone_step $dd $LL $XX $k _ _ (pay_eq _ _ _ _ rfl) ?_))

/-- One more wait recorded at the kernel's own index keeps the record of waits of the required form. -/
theorem waits_ins {W S : Waits sig (HIx 1)} (sm : SemLoc sig) (h : ∀ p ∈ S, p ∈ W ∨ p.2 = none) :
    ∀ p ∈ insert (sm, (default : HIx 1)) S, p ∈ W ∨ p.2 = none := by
  intro p hp
  rcases Finset.mem_insert.mp hp with rfl | hp
  · exact .inr rfl
  · exact h p hp

variable [FloatOps F]

set_option maxHeartbeats 1000000 in
/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp ∗ goP m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_copy L xW (Memref.isWhole_whole _) oW (Memref.isWhole_whole _) sW (Memref.isWhole_whole _) cc0_scratch1 cc0_scratch2 cc0_scratch3 cc0_scratch4)
          fun _ => iprop(tdP m d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__sc_gather_copy_eq_skeleton]; unfold cc0__sc_gather_copy_skel
  rw [(K (F := F)).scopedBufs_V hF d (cV L) (jV L), SparseCore.Cfg.scopedSems0_V (Val := Elt F) d (cV L) (jV L), ownSems0_V, ownBufs_V]
  unfold goP tdP
  iintro ⟨#Hlv, -, ⟨Hx, Ho⟩, ⟨⟨%fb, Hb⟩, Hbufs⟩, ⟨H5, H6, H7, H8, Hsems⟩, HO⟩
  ihave Hmw := ((K (F := F)).mayWaits_none (thr := V d (cV L) (jV L)) hO) $$ Hlv
  ihave Hx := (Entails.of_eq (pts_x (F := F) d L _).symm) $$ Hx
  ihave Ho := (Entails.of_eq (pts_o (F := F) d L _).symm) $$ Ho
  ihave Hb := (Entails.of_eq (pts_s (F := F) d L _).symm) $$ Hb
  sl_exec_parts
  sl_step
  -- the 32 write-outs, last to first: each lands row `k` of `x` on row `k` of the result
  have hv : ∀ i ∈ (oW).view.setOn (TR L).set, tile_body.sl.Ho_w63 m d L fb i = xAsO m d i := by
    refine rowsDone_block d L (m (xLoc d)) _ ?_
    peel_rows d L (m (xLoc d))
    exact rowsDone_zero d L _ _
  ihave Ho := (Entails.of_eq (pointsTo_congr (ℓ := (oW).view.loc (V d (cV L) (jV L))) (q := fullShare) hv)) $$ Ho
  ihave Ho := (Entails.of_eq (pts_o (F := F) d L _)) $$ Ho
  ihave Hx := (Entails.of_eq (pts_x (F := F) d L _)) $$ Hx
  ihave Hb := (Entails.of_eq (pts_s (F := F) d L _)) $$ Hb
  isplitl [Hx Ho]
  · isplitl [Hx]; · iexact Hx
    iexact Ho
  isplitl [Hb Hbufs]
  · isplitl [Hb]; · iexists _; iexact Hb
    iexact Hbufs
  isplitl [H5 H6 H7 H8 Hsems]
  · isplitl [H5]; · iexact H5
    isplitl [H6]; · iexact H6
    isplitl [H7]; · iexact H7
    isplitl [H8]; · iexact H8
    iexact Hsems
  iexists _; isplitr
  rotate_left
  · iexact HO
  ipureintro
  repeat (refine waits_ins _ ?_)
  exact fun p hp => .inl hp

end Tile

/-! ## The launch theorem's obligation -/

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__sc_gather_copy (coordsV c s)
          xW (Memref.isWhole_whole _) oW (Memref.isWhole_whole _) sW (Memref.isWhole_whole _) cc0_scratch1 cc0_scratch2 cc0_scratch3 cc0_scratch4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The worker the call's grid names `(c, i)` is the worker of that grid point. -/
theorem wOf_eq (c : Fin ((K (F := F)).nCore 0)) (i : Fin ((K (F := F)).nSub 0))
    (h0 : ((K (F := F)).core 0 c).val < grid0.bound 0) (h1 : ((K (F := F)).sub 0 i).val < grid0.bound 1) :
    wOf (Fin.cast nCore_zero c) (Fin.cast nSub_zero i) = wL (coordsV ⟨_, h0⟩ ⟨_, h1⟩) := Fin.ext rfl

/-- Every vector subcore of the call's grid runs the task: from its blocks to its blocks, the result's holding `x`. -/
theorem tileObl [FloatOps F] (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show iprop(_ ∗ _ ∗ goP m d (wOf (Fin.cast nCore_zero c) (Fin.cast nSub_zero i)) ∗ _)
    ⊢ wp _ _ _ _ (fun _ => iprop(tdP m d (wOf (Fin.cast nCore_zero c) (Fin.cast nSub_zero i)) ∗ _))
  rw [wOf_eq c i hc.1 hc.2]
  exact (tile_body m d (coordsV ⟨_, hc.1⟩ ⟨_, hc.2⟩) hF O W hO).trans (wp_mono frame _ _ fun _ => obl_post)

end Cert.KernelIdeal.Frame

end
-- ==== Proof.KernelIdealLaunch.lean ====
/-
  The launch of the copy kernel: from "every worker's task is proved" to the run of the whole program.

  The mathematics is a partition and a bijection. The 32 row blocks `blk w` (the `w`-th of 32 equal parts of the
  1024 rows) are pairwise disjoint and cover the array, so holding an array whole, at one function `f`, IS holding
  each of its 32 blocks at `f` — an equation, read in both directions. The map `(c, i) ↦ 2 i + c` from
  (SparseCore, subcore) to workers is a bijection of `Fin 2 × Fin 16` with `Fin 32`, so the 32 blocks taken once each
  are the blocks of the 16 workers of SparseCore 0 and of the 16 workers of SparseCore 1.

  Going out, the TensorCore holds the argument array and the result array whole, at their launch contents; it hands
  SparseCore `c` the blocks of its sixteen workers. Coming back, every block of the argument is unchanged and every block
  of the result array is held at the ONE function "the contents of the argument", so the blocks join to the two arrays
  whole: the argument as it was, the result equal to the argument.
-/
import proofs.«204742_g3796751089860_cont_8to1_b_745_9_alg».proof.Proof.KernelIdealSetup
import Idealize.ShloMosaic.Lib.SparseCore.Launch
import Idealize.ShloMosaic.Lib.Pipeline.Kit
import Idealize.ShloMosaic.Lib.Tactic

noncomputable section

namespace Cert.KernelIdeal.Frame

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## What the call's record says, field by field -/

theorem P_st0 (d : Dev nD) (c : Fin ((K (F := F)).nCore 0)) :
    (P m).st 0 d c = bigSep Finset.univ fun i : Fin ((K (F := F)).nSub 0) => goP m d (wOf (Fin.cast nCore_zero c) (Fin.cast nSub_zero i)) := rfl
theorem P_dn0 (d : Dev nD) (c : Fin ((K (F := F)).nCore 0)) :
    (P m).dn 0 d c = bigSep Finset.univ fun i : Fin ((K (F := F)).nSub 0) => tdP m d (wOf (Fin.cast nCore_zero c) (Fin.cast nSub_zero i)) := rfl
theorem P_go0 (d : Dev nD) (c : Fin ((K (F := F)).nCore 0)) (i : Fin ((K (F := F)).nSub 0)) :
    (P m).go 0 d c i = goP m d (wOf (Fin.cast nCore_zero c) (Fin.cast nSub_zero i)) := rfl
theorem P_td0 (d : Dev nD) (c : Fin ((K (F := F)).nCore 0)) (i : Fin ((K (F := F)).nSub 0)) :
    (P m).td 0 d c i = tdP m d (wOf (Fin.cast nCore_zero c) (Fin.cast nSub_zero i)) := rfl

/-! ## A SparseCore's operands ARE its sixteen workers' blocks -/

/-- What SparseCore `c` is handed is, by definition, what its sixteen workers are handed, and what it hands back is
    what they hand back: nothing to split, nothing to join. -/
theorem vecSplit : (K (F := F)).VecSplit' (P m) 0 := by
  intro d c
  simp only [P_st0, P_dn0, P_go0, P_td0]
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P m).x q thr) = (iprop(emp) : sProp 𝕄) from by
    show (bigSep Finset.univ fun _ : Thread nD τ => bigSep Finset.univ fun _ : Fin 1 => (iprop(emp) : sProp 𝕄)) = iprop(emp)
    rw [bigSep_congr fun _ _ => bigSep_emp' _, bigSep_emp']]
  iempintro

/-! ## The partition of an array into the 32 row blocks -/

theorem blk_disjoint : ∀ w ∈ (Finset.univ : Finset (Fin 32)), ∀ w' ∈ (Finset.univ : Finset (Fin 32)), w ≠ w' → Disjoint (blkSet w) (blkSet w') :=
  fun _ _ _ _ h => Rect.part_disjoint hdiv h
theorem blk_cover : (Finset.univ : Finset (Fin 32)).biUnion blkSet = Finset.univ := Rect.biUnion_part hdiv

/-- An array held whole at `f` is its 32 row blocks, each held at `f`. -/
theorem xPts_blocks (d : Dev nD) (f : Buf (Elt F) (xLoc d)) :
    (xLoc d ↦{fullShare} f : sProp 𝕄) = bigSep Finset.univ fun w : Fin 32 => xLoc d ↦[blkSet w]{fullShare} f := by
  rw [← pointsTo_biUnion Finset.univ (ℓ := xLoc d) blkSet blk_disjoint, blk_cover]; try rfl
theorem oPts_blocks (d : Dev nD) (f : Buf (Elt F) (oLoc d)) :
    (oLoc d ↦{fullShare} f : sProp 𝕄) = bigSep Finset.univ fun w : Fin 32 => oLoc d ↦[blkSet w]{fullShare} f := by
  rw [← pointsTo_biUnion Finset.univ (ℓ := oLoc d) blkSet blk_disjoint, blk_cover]; try rfl

/-! ## The bijection between (SparseCore, subcore) and workers -/

/-- `(c, i) ↦ 2 i + c`, with inverse `w ↦ (w mod 2, w div 2)`. -/
def wEquiv : Fin 2 × Fin 16 ≃ Fin 32 where
  toFun p := wOf p.1 p.2
  invFun w := (⟨w.val % 2, Nat.mod_lt _ (by decide)⟩, ⟨w.val / 2, by have := w.isLt; omega⟩)
  left_inv p := by
    obtain ⟨⟨c, hc⟩, ⟨i, hi⟩⟩ := p
    refine Prod.ext (Fin.ext ?_) (Fin.ext ?_)
    · show (2 * i + c) % 2 = c; omega
    · show (2 * i + c) / 2 = i; omega
  right_inv w := by
    refine Fin.ext ?_
    show 2 * (w.val / 2) + w.val % 2 = w.val; omega

/-- Something for every worker is something for every subcore of every SparseCore. -/
theorem bigSep_workers (Φ : Fin 32 → sProp 𝕄) :
    bigSep Finset.univ Φ = bigSep Finset.univ fun c : Fin 2 => bigSep Finset.univ fun i : Fin 16 => Φ (wOf c i) := by
  rw [bigSep_univ_equiv wEquiv Φ, bigSep_univ_prod]; rfl

/-- The launch theorem counts SparseCores and subcores by the kernel's own grid, `2` and `16`: only the indices' types differ. -/
theorem bigSep_grid (Φ : Fin 2 → Fin 16 → sProp 𝕄) :
    (bigSep Finset.univ fun c : Fin ((K (F := F)).nCore 0) => bigSep Finset.univ fun i : Fin ((K (F := F)).nSub 0) =>
        Φ (Fin.cast nCore_zero c) (Fin.cast nSub_zero i))
      = bigSep Finset.univ fun c : Fin 2 => bigSep Finset.univ fun i : Fin 16 => Φ c i :=
  bigSep_congr fun _ _ => bigSep_congr fun _ _ => congrArg₂ Φ (Fin.ext rfl) (Fin.ext rfl)

/-! ## What the call takes and what it gives back, as whole arrays -/

/-- Going out: the two arrays whole, at their launch contents. -/
theorem st0_eq (d : Dev nD) :
    (bigSep Finset.univ fun c : Fin ((K (F := F)).nCore 0) => (P m).st 0 d c)
      = iprop((xLoc d ↦{fullShare} m (xLoc d)) ∗ (oLoc d ↦{fullShare} m (oLoc d))) := by
  simp only [P_st0]
  rw [bigSep_grid (F := F) (fun c i => goP m d (wOf c i)), ← bigSep_workers (F := F) (fun w => goP m d w)]
  unfold goP
  rw [bigSep_sep', ← xPts_blocks, ← oPts_blocks]

/-- Coming back: the argument whole and unchanged, the result array whole and equal to the argument. -/
theorem dn0_eq (d : Dev nD) :
    (bigSep Finset.univ fun c : Fin ((K (F := F)).nCore 0) => (P m).dn 0 d c)
      = iprop((xLoc d ↦{fullShare} m (xLoc d)) ∗ (oLoc d ↦{fullShare} xAsO m d)) := by
  simp only [P_dn0]
  rw [bigSep_grid (F := F) (fun c i => tdP m d (wOf c i)), ← bigSep_workers (F := F) (fun w => tdP m d w)]
  unfold tdP
  rw [bigSep_sep', ← xPts_blocks, ← oPts_blocks]

/-! ## @main on the TensorCore -/

/-- The TensorCore's arrays that outlive every kernel are exactly the argument and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What @main leaves the claim: the argument at its launch contents, the result array holding the argument's contents. -/
abbrev FIN (d : Dev nD) : sProp 𝕄 := iprop((xLoc d ↦{fullShare} m (xLoc d)) ∗ (oLoc d ↦{fullShare} xAsO m d))

/-- @main on device `d`'s TensorCore: the one call, from the two arrays whole and back to them. -/
theorem hmain [FloatOps F] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho⟩, -, -⟩, -⟩
  iapply ((K (F := F)).wp_run (D (F := F)) 𝒱 (EH := EH) (P := P m) κ d 0) $$ [Hst Hx Ho]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitl [Hx]; · iexact Hx
  iexact Ho

/-! ## Reading the final memory -/

def fq (d : Dev nD) (s' : Phys nD τ sig (Elt F)) : Prop := s'.mem.mem (oLoc d) = xAsO m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := oLoc d) (I := Finset.univ) (q := fullShare) (f := xAsO m d))) $$ [HSI Ho]
  · isplitl [HSI] <;> iassumption
  icases H with ⟨%h1, HSI, -⟩
  ihave H := (SI_pointsTo_agree (st := s') (ℓ := xLoc d) (I := Finset.univ) (q := fullShare) (f := m (xLoc d))) $$ [HSI Hx]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD, r.2.mem (oLoc c) = xAsO m c ∧ r.2.mem (xLoc c) = m (xLoc c)

/-- Given every worker's task, the whole program runs; at the end, on every device, the result array holds the
    argument's launch contents and the argument is unchanged. -/
theorem run_main [FloatOps F] [∀ e, Nonempty (Elt F e)] (hT : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.KernelIdeal.Frame

end
-- ==== Proof.RefValue.lean ====
/-
  The value of the reference's result term, apart from its run. The reference is `jnp.take(x, idx, axis=1)` in its
  fill mode at the constant table `idx = 0, 1, …, 63`, for `x : f32[1024, 64, 768]`. Its result term is a select,
  on a range mask broadcast along axis 1, between the gather of `x` at the normalised index column and a fill
  constant. Here: every entry of the table is non-negative and at most 63, so normalising leaves it and the range
  test passes; a reduction by `and` of an array of ones from one is one; the gather along axis 1 at the numbers
  `0, 1, …, 63` reads each element where it is. Hence the term is `x` itself, whatever the fill.
-/
import proofs.«204742_g3796751089860_cont_8to1_b_745_9_alg».proof.Proof.Gen.ReferenceIdeal
import Idealize.ShloMosaic.Lib.Pipeline.Value
import Idealize.ShloMosaic.Lib.ValueIdx
import Idealize.ShloMosaic.PureOps.Reduce

noncomputable section

namespace Cert.ReferenceIdeal.RefRun

open Cert.ReferenceIdeal Cert.ReferenceIdeal.Gen Idealize.ShloMosaic

/-! ## The value: the take at the table `0, 1, …, 63` is the identity

The result at index `(p, q, r)` is `select` on the range bit of row `q` between the gathered element and the fill
constant. Row `q`'s index is the word `q` (non-negative, so the normalisation leaves it), which passes `0 ≤ · ≤ 63`:
the bit is one, the select takes the gathered element, and the gather, whose only start index component is that
word on axis 1 with offsets `p` and `r` on axes 0 and 2, reads the operand at `(p, q, r)` itself. -/

section Value

/-- One index word as the take normalises it: moved up by the extent 64 when it is negative. -/
abbrev normIdx (w : BitVec 32) : BitVec 32 := Scalar.select (IntOp.cmpi .slt w 0#32) (IntOp.addi w 64#32) w

/-- Every entry of the table, normalised, lies in `[0, 63]` as a signed word … -/
theorem normIdx_lit0_inRange : ∀ n : Fin 64,
    IntOp.andi (IntOp.cmpi .sge (normIdx (lit0 n)) 0#32) (IntOp.cmpi .sle (normIdx (lit0 n)) 63#32) = 1#1 := by decide

/-- … and entry `n`, read signed, is the number `n`. -/
theorem normIdx_lit0_toNat : ∀ n : Fin 64, (normIdx (lit0 n)).toInt.toNat = n.val := by decide

/-- The index column `[64, 1]`: the table normalised entry by entry, one entry per row. -/
abbrev idxCol : IVec S64x1 32 :=
  broadcastInDim S64x1 ![0] bcast_S64_S64x1_0
    (select (cmpi .slt (fun i => lit0 (S64.rowMajor i)) (broadcastInDim S64 ![] bcast_S_S64 (constantI S_ 32 0#32)))
      (addi (fun i => lit0 (S64.rowMajor i)) (broadcastInDim S64 ![] bcast_S_S64 (constantI S_ 32 64#32)))
      (fun i => lit0 (S64.rowMajor i)))

/-- Row `k` of the column is the normalised entry at `k`'s first coordinate. -/
theorem idxCol_apply (k : S64x1.Idx) : idxCol k = normIdx (lit0 (S64.rowMajor (ValueIdx.ix1 (k 0)))) :=
  (broadcastInDim_apply _ _ _ k (ValueIdx.ix1 (k 0)) (fun a => match a with | ⟨0, _⟩ => rfl)).trans rfl

/-- Read signed, row `k` of the column is the number `k`'s first coordinate. -/
theorem idxCol_toNat (k : S64x1.Idx) : (idxCol k).toInt.toNat = (k 0).val :=
  (congrArg (fun w : BitVec 32 => w.toInt.toNat) (idxCol_apply k)).trans
    ((normIdx_lit0_toNat _).trans (Shape.rowMajor_val_one _))

/-- The range test of the column, `0 ≤ · ∧ · ≤ 63`, entry by entry. -/
abbrev inRange : IVec S64x1 1 :=
  andi (cmpi .sge idxCol (broadcastInDim S64x1 ![] bcast_S_S64x1 (constantI S_ 32 0#32)))
    (cmpi .sle idxCol (broadcastInDim S64x1 ![0, 1] bcast_S1x1_S64x1_0_1 (broadcastInDim S1x1 ![1] bcast_S1_S1x1_1 (constantI S1 32 63#32))))

theorem inRange_one (k : S64x1.Idx) : inRange k = 1#1 := by
  show IntOp.andi (IntOp.cmpi .sge (idxCol k) 0#32) (IntOp.cmpi .sle (idxCol k) 63#32) = 1#1
  rw [idxCol_apply]
  exact normIdx_lit0_inRange _

/-- A left fold by `and` from 1 over words that are all 1 is 1. -/
theorem foldl_andi_one {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and` from the initial value 1 of an array that is 1 everywhere is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-- The range mask `[64]`: the test folded by `and` along the column's unit axis. -/
abbrev rangeMask : IVec S64 1 := Host.reduce IntOp.andi inRange (constantI S_ 1 1#1) reducesTo_S64x1_S64_d1 h_S_

theorem rangeMask_one (q : S64.Idx) : rangeMask q = 1#1 :=
  reduce_andi_one inRange (constantI S_ 1 1#1) reducesTo_S64x1_S64_d1 h_S_ inRange_one rfl q

/-- The take's dimension numbers: whole `[1024, ·, 768]` slabs, the start index on axis 1. -/
abbrev takeG : GatherDims S1024x64x768 S64x1 S1024x64x768 := gather_S1024x64x768_S64x1_S1024x64x768_02_1_n_n_1_1_10241768

/-- A gather with these dimension numbers at a column whose row `q` holds the number `q` reads every element where it
    is: on axes 0 and 2 the operand coordinate is the result's offset coordinate, on axis 1 it is the start index
    `min q 63 = q`. -/
theorem gather_id {α : Type} (x : S1024x64x768.Idx → α) (ix : IVec S64x1 32)
    (hix : ∀ k : S64x1.Idx, (ix k).toInt.toNat = (k 0).val) (j : S1024x64x768.Idx) :
    Host.gather takeG x ix j = x j := by
  unfold Host.gather
  congr 1
  funext a
  refine Fin.ext ?_
  show takeG.start j ix a + takeG.batchCoord j a + takeG.offCoord j a = (j a).val
  rw [GatherDims.batchCoord_eq_zero _ _ _ List.not_mem_nil, Nat.add_zero]
  match a with
  | ⟨0, _⟩ =>
    have hs : takeG.start j ix ⟨0, by decide⟩ = 0 := by unfold GatherDims.start; exact dif_neg (by decide)
    have ho : takeG.offCoord j ⟨0, by decide⟩ = (j 0).val := by unfold GatherDims.offCoord; rw [dif_pos (by decide)]; rfl
    rw [hs, ho, Nat.zero_add]; rfl
  | ⟨1, _⟩ =>
    have ho : takeG.offCoord j ⟨1, by decide⟩ = 0 := GatherDims.offCoord_eq_zero _ _ _ (by decide)
    have hs : takeG.start j ix ⟨1, by decide⟩ = (j 1).val := by
      unfold GatherDims.start
      rw [dif_pos (by decide), hix]
      have hlt : (j 1).val < 64 := (j 1).isLt
      show min (j 1).val (64 - 1) = (j 1).val
      omega
    rw [hs, ho, Nat.add_zero]; rfl
  | ⟨2, _⟩ =>
    have hs : takeG.start j ix ⟨2, by decide⟩ = 0 := by unfold GatherDims.start; exact dif_neg (by decide)
    have ho : takeG.offCoord j ⟨2, by decide⟩ = (j 2).val := by unfold GatherDims.offCoord; rw [dif_pos (by decide)]; rfl
    rw [hs, ho, Nat.zero_add]; rfl

/-- THE VALUE. The take's result term — select on the broadcast range mask between the gathered array and any fill — is
    the operand: at every index the mask bit is 1 and the gather reads the operand there. -/
theorem take_eq {α : Type} (x fill : S1024x64x768.Idx → α) :
    select (broadcastInDim S1024x64x768 ![1] bcast_S64_S1024x64x768_1 rangeMask) (Host.gather takeG x idxCol) fill = x := by
  funext j
  show Scalar.select (rangeMask _) (Host.gather takeG x idxCol j) (fill j) = x j
  rw [rangeMask_one, gather_id x idxCol idxCol_toNat j]
  exact if_pos rfl

end Value

end Cert.ReferenceIdeal.RefRun

end
-- ==== Proof.RefRun.lean ====
/-
  The reference program's run. The reference is `jnp.take(x, idx, axis=1)` in its fill mode at the
  constant table `idx = 0, 1, …, 63`, for `x : f32[1024, 64, 768]`: @main makes the table and calls the take, which
  calls a three-way select. Below: @main as the list of its 24 operations with the two calls unfolded; its run —
  every weakly fair execution terminates, faulting nowhere, with every buffer at the operations' fold over the
  launch contents —; and what the fold leaves: at the result buffer the take's term of the argument's contents,
  which is the argument itself (the value module: every index of the table is in range and the gather along axis 1
  at `0, 1, …, 63` reads each element where it is), and at the argument's buffer, which no operation writes, what
  was there. Nothing is asked of the initial memory.
-/
import proofs.«204742_g3796751089860_cont_8to1_b_745_9_alg».proof.Proof.RefValue
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 24 operations in order, the two calls unfolded: the index table `0, 1, …, 63`; then the
    take along axis 1 in its fill mode — the indices below zero found (`< 0`) and moved up by the extent 64
    (the inner function's one select), the index column, its range test `0 ≤ · ≤ 63` folded by `and` along
    the unit axis, the gather of whole `[1024, ·, 768]` slabs at the index column, the range mask broadcast
    along axis 1, and the select between the gathered array and the fill constant. -/
abbrev ops : List (HloOp τ sig (Elt F)) :=
  [ nullary main_c (fun i => lit0 (S64.rowMajor i)),
    TRef.nullary main_call0.c (constantI S_ 32 0#32),
    TRef.unary main_call0.c main_call0.v0 (broadcastInDim S64 ![] bcast_S_S64),
    TRef.binary (.of main_c) main_call0.v0 main_call0.v1 (cmpi .slt),
    TRef.nullary main_call0.c_0 (constantI S_ 32 64#32),
    TRef.unary main_call0.c_0 main_call0.v2 (broadcastInDim S64 ![] bcast_S_S64),
    TRef.binary (.of main_c) main_call0.v2 main_call0.v3 addi,
    TRef.ternary main_call0.v1 main_call0.v3 (.of main_c) main_call0.call0.v0 select,
    TRef.unary main_call0.call0.v0 main_call0.v5 (broadcastInDim S64x1 ![0] bcast_S64_S64x1_0),
    TRef.nullary main_call0.c_1 (constantI S1 32 63#32),
    TRef.nullary main_call0.c_2 (constantI S_ 32 0#32),
    TRef.unary main_call0.c_2 main_call0.v6 (broadcastInDim S64x1 ![] bcast_S_S64x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S64x1 ![0, 1] bcast_S1x1_S64x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S64x1_S64_d1 h_S_),
    TRef.binary (.of main_arg0) main_call0.v5 main_call0.v13 (fun x i => Host.gather gather_S1024x64x768_S64x1_S1024x64x768_02_1_n_n_1_1_10241768 x i),
    TRef.unary main_call0.v12 main_call0.v14 (broadcastInDim S1024x64x768 ![1] bcast_S64_S1024x64x768_1),
    TRef.nullary main_call0.cst (constant S_ .f32 0x7FC00000#32),
    TRef.unary main_call0.cst main_call0.v15 (broadcastInDim S1024x64x768 ![] bcast_S_S1024x64x768),
    TRef.ternary main_call0.v14 main_call0.v13 main_call0.v15 main_call0.v16 select ]

-- twenty-four binds re-associated under the two functions' definitions
set_option maxRecDepth 1024 in
/-- @main is that straight line: the two functions' definitions unfolded at their calls and the call records at
    their fields, both sides are one chain of operation steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-- For any float values, from any memory with zero counters: every weakly fair execution of @main terminates, and
    every buffer ends at the fold of the operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the fold leaves, and the run with its value -/

-- the reduction and the gather stay folded: the equation below never looks inside them
attribute [local irreducible] Host.reduce Host.gather in
/-- After the line the result buffer holds the argument's contents. The fold at the result buffer is the
    operations' composed term of the argument's contents; a typed reference at a literal buffer moves contents
    along an equation of a type with itself, which is the identity; what is left is the take's term, and that is
    the argument (`take_eq`). -/
theorem out_eq (V : Valuation τ sig (Elt F)) :
    after ops V (main_v0 : DevRef τ sig) = V (main_arg0 : DevRef τ sig) := by
  after_results
  simp only [TRef.ofBuf, TRef.toBuf, cast_eq]
  exact take_eq _ _

/-- No operation writes the argument's buffer. -/
theorem arg0_eq (V : Valuation τ sig (Elt F)) :
    after ops V (main_arg0 : DevRef τ sig) = V (main_arg0 : DevRef τ sig) := by
  after_results

/-- At the ideal values, from any memory with zero counters: every weakly fair execution of the reference
    terminates, faulting nowhere, with its result equal to its argument and its argument unchanged. -/
theorem run (m : (ℓ : Loc nD τ sig) → Buf (Elt Ideal) ℓ) (g : Dev nD → PrngReg) :
    θ_run (defs (F := Ideal)) (onTc (τ := τ) (main (F := Ideal))) ⟨m, fun _ => 0, g⟩
      (fun r => ∀ c : Dev nD,
        r.2.mem ((c.tc : Thread nD τ).loc main_v0) = m ((c.tc : Thread nD τ).loc main_arg0)
        ∧ r.2.mem ((c.tc : Thread nD τ).loc main_arg0) = m ((c.tc : Thread nD τ).loc main_arg0)) :=
  (θ_run defs _ _).mono (fun _ h c => ⟨(h c main_v0).trans (out_eq _), (h c main_arg0).trans (arg0_eq _)⟩)
    (run_all m g)

end Cert.ReferenceIdeal.RefRun

end
-- ==== Proof.lean ====
/-
  A double-buffered row copy on the SparseCore against `jnp.take` at the identity permutation.

  The kernel: each of the 32 vector subcores (worker `2 i + c` on subcore `i` of SparseCore `c`) copies its 32 rows of
  `x : f32[1024, 64, 768]` into the same rows of the result, a row at a time through a two-slot staging buffer, every
  copy waited for before its buffers are touched again. The workers' row blocks partition the array, so when all tasks
  have returned the result array holds `x`, and `x` itself was only read (`Frame.run_main`: the task's obligation under
  the launch theorem, at either float instance — the program moves words and computes nothing).

  The reference: `take(x, [0, …, 63], axis = 1)` in fill mode. Every index is in range, so the range mask is all ones
  and the gather reads column `j` at position `j`: the result is `x`, for every input (`RefRun.run`).

  Hence both programs run to the end without fault and leave the argument unchanged (the three frames), and from
  memories agreeing on `x` both end with the result array equal to `x` (the algebraic claim; no finiteness is used,
  no arithmetic is done). The idealization rewrote nothing, so there is nothing to preserve.
-/
import proofs.«204742_g3796751089860_cont_8to1_b_745_9_alg».proof.Defs
import proofs.«204742_g3796751089860_cont_8to1_b_745_9_alg».proof.Proof.Gen.Kernel
import proofs.«204742_g3796751089860_cont_8to1_b_745_9_alg».proof.Proof.Gen.Kernel.Skeleton
import proofs.«204742_g3796751089860_cont_8to1_b_745_9_alg».proof.Proof.Gen.KernelIdeal
import proofs.«204742_g3796751089860_cont_8to1_b_745_9_alg».proof.Proof.Gen.KernelIdeal.Skeleton
import proofs.«204742_g3796751089860_cont_8to1_b_745_9_alg».proof.Proof.Gen.ReferenceIdeal
import proofs.«204742_g3796751089860_cont_8to1_b_745_9_alg».proof.Proof.Gen.Pre_finite_inputs
import proofs.«204742_g3796751089860_cont_8to1_b_745_9_alg».proof.Proof.KernelTile
import proofs.«204742_g3796751089860_cont_8to1_b_745_9_alg».proof.Proof.KernelLaunch
import proofs.«204742_g3796751089860_cont_8to1_b_745_9_alg».proof.Proof.KernelIdealTile
import proofs.«204742_g3796751089860_cont_8to1_b_745_9_alg».proof.Proof.KernelIdealLaunch
import proofs.«204742_g3796751089860_cont_8to1_b_745_9_alg».proof.Proof.RefRun
import Idealize.ShloMosaic.Adequacy
import Idealize.ShloMosaic.Init

noncomputable section

namespace Cert.Proof

open Idealize.ShloMosaic Idealize.SL.Sem

/-- The word-level kernel runs, and `x` ends as it began. -/
theorem frame_k : Cert.frame_Kernel := fun m ρ _ =>
  (θ_run Cert.Kernel.defs _ _).mono (fun _ h c => (h c).2)
    (Cert.Kernel.Frame.run_main (F := Bits) m ρ (Cert.Kernel.Frame.tileObl m Cert.Kernel.Frame.facts))

/-- The same of the idealized kernel. -/
theorem frame_ki : Cert.frame_KernelIdeal := fun m ρ _ =>
  (θ_run Cert.KernelIdeal.defs _ _).mono (fun _ h c => (h c).2)
    (Cert.KernelIdeal.Frame.run_main (F := Ideal) m ρ (Cert.KernelIdeal.Frame.tileObl m Cert.KernelIdeal.Frame.facts))

/-- The reference runs, and `x` ends as it began. -/
theorem frame_ri : Cert.frame_ReferenceIdeal := fun m g _ =>
  (θ_run Cert.ReferenceIdeal.defs _ _).mono (fun _ h c => (h c).2) (Cert.ReferenceIdeal.RefRun.run m g)

/-- The idealization rewrote no operation. -/
theorem preserves : Cert.preserves_Kernel_KernelIdeal := trivial

/-- Both programs end with the result array equal to `x`. -/
theorem algebraic : Cert.algebraic_KernelIdeal_ReferenceIdeal := by
  intro m ρ m' ρ' _ hagree
  refine ⟨fun c => Cert.KernelIdeal.Frame.xAsO m c,
    Cert.KernelIdeal.Frame.run_main (F := Ideal) m ρ (Cert.KernelIdeal.Frame.tileObl m Cert.KernelIdeal.Frame.facts), ?_⟩
  refine (θ_run Cert.ReferenceIdeal.defs _ _).mono (fun _ h c => ⟨(h c).1.trans ?_, (h c).2⟩)
    (Cert.ReferenceIdeal.RefRun.run m' ρ')
  exact hagree c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
